-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S100000x35 : Shape := ⟨2, ![100000, 35]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S100000 32) (main_arg2 : IVec S100000x35 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S100000 : Shape := ⟨1, ![100000]⟩
abbrev S100000x35 : Shape := ⟨2, ![100000, 35]⟩
abbrev S_ : Shape := ⟨0, ![]⟩
abbrev S100000x35x1 : Shape := ⟨3, ![100000, 35, 1]⟩
abbrev S100000x35x64 : Shape := ⟨3, ![100000, 35, 64]⟩
abbrev S100000x1 : Shape := ⟨2, ![100000, 1]⟩
abbrev S2x8x128 : Shape := ⟨3, ![2, 8, 128]⟩
abbrev S400x64 : Shape := ⟨2, ![400, 64]⟩
abbrev S400x35x64 : Shape := ⟨3, ![400, 35, 64]⟩
abbrev S400x35 : Shape := ⟨2, ![400, 35]⟩
abbrev S400x1 : Shape := ⟨2, ![400, 1]⟩
abbrev S1x8x128 : Shape := ⟨3, ![1, 8, 128]⟩
abbrev S400 : Shape := ⟨1, ![400]⟩
abbrev S400x1x64 : Shape := ⟨3, ![400, 1, 64]⟩
abbrev S1 : Shape := ⟨1, ![1]⟩
abbrev S1x1 : Shape := ⟨2, ![1, 1]⟩
abbrev S1x1x1 : Shape := ⟨3, ![1, 1, 1]⟩

abbrev nBuf : Space → Nat
  | .hbm => 40
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S100000x35, .i32⟩
  | .hbm, ⟨3, _⟩ => ⟨S100000x64, .bf16⟩
  | .hbm, ⟨4, _⟩ => ⟨S_, .i32⟩
  | .hbm, ⟨5, _⟩ => ⟨S100000x35, .i32⟩
  | .hbm, ⟨6, _⟩ => ⟨S100000x35, .i1⟩
  | .hbm, ⟨7, _⟩ => ⟨S_, .i32⟩
  | .hbm, ⟨8, _⟩ => ⟨S100000x35, .i32⟩
  | .hbm, ⟨9, _⟩ => ⟨S100000x35, .i32⟩
  | .hbm, ⟨10, _⟩ => ⟨S100000x35, .i32⟩
  | .hbm, ⟨11, _⟩ => ⟨S100000x35x1, .i32⟩
  | .hbm, ⟨12, _⟩ => ⟨S100000x35x64, .bf16⟩
  | .hbm, ⟨13, _⟩ => ⟨S_, .i32⟩
  | .hbm, ⟨14, _⟩ => ⟨S100000x35, .i32⟩
  | .hbm, ⟨15, _⟩ => ⟨S100000x35, .i1⟩
  | .hbm, ⟨16, _⟩ => ⟨S_, .i32⟩
  | .hbm, ⟨17, _⟩ => ⟨S100000x35, .i32⟩
  | .hbm, ⟨18, _⟩ => ⟨S100000x35, .i32⟩
  | .hbm, ⟨19, _⟩ => ⟨S100000x35, .i32⟩
  | .hbm, ⟨20, _⟩ => ⟨S100000x35x1, .i32⟩
  | .hbm, ⟨21, _⟩ => ⟨S100000x35, .i32⟩
  | .hbm, ⟨22, _⟩ => ⟨S100000x1, .i32⟩
  | .hbm, ⟨23, _⟩ => ⟨S2x8x128, .f32⟩
  | .hbm, ⟨24, _⟩ => ⟨S2x8x128, .f32⟩
  | .hbm, ⟨25, _⟩ => ⟨S1x1x1, .f32⟩
  | .hbm, ⟨26, _⟩ => ⟨S_, .f32⟩
  | .hbm, ⟨27, _⟩ => ⟨S1x1x1, .f32⟩
  | .hbm, ⟨28, _⟩ => ⟨S_, .f32⟩
  | .hbm, ⟨29, _⟩ => ⟨S_, .f32⟩
  | .hbm, ⟨30, _⟩ => ⟨S1x1x1, .f32⟩
  | .hbm, ⟨31, _⟩ => ⟨S_, .f32⟩
  | .hbm, ⟨32, _⟩ => ⟨S1x1x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S400x64, .f32⟩
  | .local _ .vmem, ⟨1, _⟩ => ⟨S400x64, .f32⟩
  | .local _ .vmem, ⟨2, _⟩ => ⟨S400x35x64, .bf16⟩
  | .local _ .vmem, ⟨3, _⟩ => ⟨S400x35x64, .bf16⟩
  | .local _ .vmem, ⟨4, _⟩ => ⟨S400x35, .i32⟩
  | .local _ .vmem, ⟨5, _⟩ => ⟨S400x35, .i32⟩
  | .local _ .vmem, ⟨6, _⟩ => ⟨S400x1, .i32⟩
  | .local _ .vmem, ⟨7, _⟩ => ⟨S400x1, .i32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x35x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S400x35 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S400x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  bcast_S_S100000x35 : S_.BroadcastsInDim S100000x35 (![] : Fin 0 → Fin S100000x35.rank)
  bcast_S100000x35_S100000x35x1_0_1 : S100000x35.BroadcastsInDim S100000x35x1 (![0, 1] : Fin 2 → Fin S100000x35x1.rank)
  bcast_S100000_S100000x1_0 : S100000.BroadcastsInDim S100000x1 (![0] : Fin 1 → Fin S100000x1.rank)
  inb_S1x8x128_S1x8x128_0_0_0 : ∀ a, (![0, 0, 0] : Fin 3 → Nat) a + S1x8x128.size a ≤ S1x8x128.size a
  h_S1x8x128 : 0 < S1x8x128.numel
  inb_S400x64_S400x64_0_0 : ∀ a, (![0, 0] : Fin 2 → Nat) a + S400x64.size a ≤ S400x64.size a
  h_S400x64 : 0 < S400x64.numel
  inb_S400x35x64_S400x35x64_0_0_0 : ∀ a, (![0, 0, 0] : Fin 3 → Nat) a + S400x35x64.size a ≤ S400x35x64.size a
  h_S400x35x64 : 0 < S400x35x64.numel
  shapeCasts_S400x35x64_S400x35x64 : S400x35x64.ShapeCasts S400x35x64
  inb_S400x35_S400x35_0_0 : ∀ a, (![0, 0] : Fin 2 → Nat) a + S400x35.size a ≤ S400x35.size a
  h_S400x35 : 0 < S400x35.numel
  shapeCasts_S400x35_S400x35 : S400x35.ShapeCasts S400x35
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x35 : S400x1.Broadcasts S400x35
  natLt_1_32 : 1 < 32
  reduces_S400x35_S400 : S400x35.Reduces [1] S400
  shapeCasts_S400_S400x1 : S400.ShapeCasts S400x1
  shapeCasts_S400x64_S400x1x64 : S400x64.ShapeCasts S400x1x64
  broadcasts_S400x1x64_S400x35x64 : S400x1x64.Broadcasts S400x35x64
  reduces_S400x35x64_S400x35 : S400x35x64.Reduces [2] S400x35
  reduces_S400x1_S1 : S400x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  gather_S100000x64_S100000x35x1_S100000x35x64_2_0_n_n_0_2_164_wf : GatherDims.WF S100000x64 S100000x35x1 S100000x35x64 [2] [0] [] [0] [] 2 ![1, 64]
  gather_S100000_S100000x35x1_S100000x35_n_0_n_n_0_2_1_wf : GatherDims.WF S100000 S100000x35x1 S100000x35 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S100000x64.size a
  hwx0_0 : ∀ i : grid0.Coords, EltTy.bits .f32 = 32 ∨ (Rect.block (s := S100000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x35x64.size a ≤ S100000x35x64.size a
  hwx0_1 : ∀ i : grid0.Coords, EltTy.bits .bf16 = 32 ∨ (Rect.block (s := S100000x35x64) S400x35x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x35.size a ≤ S100000x35.size a
  hwx0_2 : ∀ i : grid0.Coords, EltTy.bits .i32 = 32 ∨ (Rect.block (s := S100000x35) S400x35.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S100000x1.size a
  hwx0_3 : ∀ i : grid0.Coords, EltTy.bits .i32 = 32 ∨ (Rect.block (s := S100000x1) S400x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

def gather_S100000x64_S100000x35x1_S100000x35x64_2_0_n_n_0_2_164 : GatherDims S100000x64 S100000x35x1 S100000x35x64 where
  offsetDims := [2]
  collapsedSliceDims := [0]
  operandBatchingDims := []
  startIndicesBatchingDims := []
  startIndexMap := [0]
  indexVectorDim := 2
  sliceSizes := ![1, 64]
  wf := gather_S100000x64_S100000x35x1_S100000x35x64_2_0_n_n_0_2_164_wf
def gather_S100000_S100000x35x1_S100000x35_n_0_n_n_0_2_1 : GatherDims S100000 S100000x35x1 S100000x35 where
  offsetDims := []
  collapsedSliceDims := [0]
  operandBatchingDims := []
  startIndicesBatchingDims := []
  startIndexMap := [0]
  indexVectorDim := 2
  sliceSizes := ![1]
  wf := gather_S100000_S100000x35x1_S100000x35_n_0_n_n_0_2_1_wf

abbrev win0_0 : Pipeline.Window sig grid0 :=
  Pipeline.Window.ofSpec (Memref.whole main_arg0) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S400x35x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S400x35.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000 : Shape := ⟨1, ![100000]⟩
abbrev S100000x35 : Shape := ⟨2, ![100000, 35]⟩
abbrev S_ : Shape := ⟨0, ![]⟩
abbrev S100000x35x1 : Shape := ⟨3, ![100000, 35, 1]⟩
abbrev S100000x35x64 : Shape := ⟨3, ![100000, 35, 64]⟩
abbrev S100000x1 : Shape := ⟨2, ![100000, 1]⟩
abbrev S100000x1x64 : Shape := ⟨3, ![100000, 1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S100000x35, .i32⟩
  | .hbm, ⟨3, _⟩ => ⟨S_, .i32⟩
  | .hbm, ⟨4, _⟩ => ⟨S100000x35, .i32⟩
  | .hbm, ⟨5, _⟩ => ⟨S100000x35, .i1⟩
  | .hbm, ⟨6, _⟩ => ⟨S_, .i32⟩
  | .hbm, ⟨7, _⟩ => ⟨S100000x35, .i32⟩
  | .hbm, ⟨8, _⟩ => ⟨S100000x35, .i32⟩
  | .hbm, ⟨9, _⟩ => ⟨S100000x35, .i32⟩
  | .hbm, ⟨10, _⟩ => ⟨S100000x35x1, .i32⟩
  | .hbm, ⟨11, _⟩ => ⟨S100000x35, .i32⟩
  | .hbm, ⟨12, _⟩ => ⟨S_, .i32⟩
  | .hbm, ⟨13, _⟩ => ⟨S100000x35, .i32⟩
  | .hbm, ⟨14, _⟩ => ⟨S100000x35, .i1⟩
  | .hbm, ⟨15, _⟩ => ⟨S_, .i32⟩
  | .hbm, ⟨16, _⟩ => ⟨S100000x35, .i32⟩
  | .hbm, ⟨17, _⟩ => ⟨S100000x35, .i32⟩
  | .hbm, ⟨18, _⟩ => ⟨S100000x35, .i32⟩
  | .hbm, ⟨19, _⟩ => ⟨S100000x35x1, .i32⟩
  | .hbm, ⟨20, _⟩ => ⟨S100000x35x64, .f32⟩
  | .hbm, ⟨21, _⟩ => ⟨S100000x1, .i32⟩
  | .hbm, ⟨22, _⟩ => ⟨S100000x35, .i32⟩
  | .hbm, ⟨23, _⟩ => ⟨S100000x35, .i1⟩
  | .hbm, ⟨24, _⟩ => ⟨S100000x35, .i32⟩
  | .hbm, ⟨25, _⟩ => ⟨S_, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S100000, .i1⟩
  | .hbm, ⟨34, _⟩ => ⟨S100000x1x64, .f32⟩
  | .hbm, ⟨35, _⟩ => ⟨S100000x35x64, .f32⟩
  | .hbm, ⟨36, _⟩ => ⟨S100000x35x64, .f32⟩
  | .hbm, ⟨37, _⟩ => ⟨S100000x35x64, .f32⟩
  | .hbm, ⟨38, _⟩ => ⟨S_, .f32⟩
  | .hbm, ⟨39, _⟩ => ⟨S100000x35, .f32⟩
  | .hbm, ⟨40, _⟩ => ⟨S_, .f32⟩
  | .hbm, ⟨41, _⟩ => ⟨S100000x35, .f32⟩
  | .hbm, ⟨42, _⟩ => ⟨S100000x35, .f32⟩
  | .hbm, ⟨43, _⟩ => ⟨S100000x35, .f32⟩
  | .hbm, ⟨44, _⟩ => ⟨S100000x35, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S100000x35, .f32⟩
  | .hbm, ⟨49, _⟩ => ⟨S100000x35, .f32⟩
  | .hbm, ⟨50, _⟩ => ⟨S_, .f32⟩
  | .hbm, ⟨51, _⟩ => ⟨S100000x35, .f32⟩
  | .hbm, ⟨52, _⟩ => ⟨S100000x35, .f32⟩
  | .hbm, ⟨53, _⟩ => ⟨S100000x35, .f32⟩
  | .hbm, ⟨54, _⟩ => ⟨S100000x35, .f32⟩
  | .hbm, ⟨55, _⟩ => ⟨S100000x35, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S100000x35 : S_.BroadcastsInDim S100000x35 (![] : Fin 0 → Fin S100000x35.rank)
  bcast_S100000x35_S100000x35x1_0_1 : S100000x35.BroadcastsInDim S100000x35x1 (![0, 1] : Fin 2 → Fin S100000x35x1.rank)
  bcast_S100000_S100000x1_0 : S100000.BroadcastsInDim S100000x1 (![0] : Fin 1 → Fin S100000x1.rank)
  bcast_S100000x1_S100000x35_0_1 : S100000x1.BroadcastsInDim S100000x35 (![0, 1] : Fin 2 → Fin S100000x35.rank)
  natLt_1_32 : 1 < 32
  reducesTo_S100000x35_S100000_d1 : S100000x35.ReducesTo [1] S100000
  h_S_ : 0 < S_.numel
  bcast_S_S100000 : S_.BroadcastsInDim S100000 (![] : Fin 0 → Fin S100000.rank)
  bcast_S100000x64_S100000x1x64_0_2 : S100000x64.BroadcastsInDim S100000x1x64 (![0, 2] : Fin 2 → Fin S100000x1x64.rank)
  bcast_S100000x1x64_S100000x35x64_0_1_2 : S100000x1x64.BroadcastsInDim S100000x35x64 (![0, 1, 2] : Fin 3 → Fin S100000x35x64.rank)
  reducesTo_S100000x35x64_S100000x35_d2 : S100000x35x64.ReducesTo [2] S100000x35
  reducesTo_S100000_S_d0 : S100000.ReducesTo [0] S_
  gather_S100000_S100000x35x1_S100000x35_n_0_n_n_0_2_1_wf : GatherDims.WF S100000 S100000x35x1 S100000x35 [] [0] [] [0] [] 2 ![1]
  gather_S100000x64_S100000x35x1_S100000x35x64_2_0_n_n_0_2_164_wf : GatherDims.WF S100000x64 S100000x35x1 S100000x35x64 [2] [0] [] [0] [] 2 ![1, 64]

variable [Facts₀]

def gather_S100000_S100000x35x1_S100000x35_n_0_n_n_0_2_1 : GatherDims S100000 S100000x35x1 S100000x35 where
  offsetDims := []
  collapsedSliceDims := [0]
  operandBatchingDims := []
  startIndicesBatchingDims := []
  startIndexMap := [0]
  indexVectorDim := 2
  sliceSizes := ![1]
  wf := gather_S100000_S100000x35x1_S100000x35_n_0_n_n_0_2_1_wf
def gather_S100000x64_S100000x35x1_S100000x35x64_2_0_n_n_0_2_164 : GatherDims S100000x64 S100000x35x1 S100000x35x64 where
  offsetDims := [2]
  collapsedSliceDims := [0]
  operandBatchingDims := []
  startIndicesBatchingDims := []
  startIndexMap := [0]
  indexVectorDim := 2
  sliceSizes := ![1, 64]
  wf := gather_S100000x64_S100000x35x1_S100000x35x64_2_0_n_n_0_2_164_wf

class Facts : Prop extends Facts₀ where

variable [Facts]
-- ==== Proof.Spec.lean ====
/-
  The soft-nearest-neighbour contrast loss, row by row, on the extended reals.

  A point has 64 features, a label, and 35 neighbours, each with its own features and label. For one point:
    * to neighbour k it has the score d k = -sqrt (sum over the 64 features of the squared difference, plus epsilon);
    * the weight of neighbour k is exp ((d k - max over the neighbours of d) / temperature);
    * p k is 1 when neighbour k carries the point's own label and 0 otherwise;
    * its loss is -log ((sum of weight * p) / (sum of weight) + epsilon);
    * it is valid when the number of neighbours with its label is more than 0 and less than 35.
  The result is the sum of the valid points' losses divided by the larger of the number of valid points and 1.

  Everything here is a function of one point's own data, so it can be said once and used for a block of 400 points or
  for all 100000 of them. The constants are kept as their f32 words, the same words on both sides of the comparison.
-/
import Idealize.ShloMosaic.PureOps.Ideal
import Idealize.ShloMosaic.PureOps.Ideal.Laws
import Idealize.ShloMosaic.Lib.ValueIdx

noncomputable section

open Idealize.ShloMosaic
open scoped BigOperators

namespace Cert.Contrast

/-- The f32 word of 1e-7. -/
abbrev eps : EReal := Ideal.ofBits .f32 0x33D6BF95#32
/-- The f32 word of the temperature 0.1. -/
abbrev temp : EReal := Ideal.ofBits .f32 0x3DCCCCCD#32
/-- The f32 word of minus infinity, where a row's maximum starts. -/
abbrev negInf : EReal := Ideal.ofBits .f32 0xFF800000#32
/-- The f32 word of 35, the number of neighbours. -/
abbrev kf : EReal := Ideal.ofBits .f32 0x420C0000#32
/-- The f32 word of 1. -/
abbrev one : EReal := Ideal.ofBits .f32 0x3F800000#32

/-- Minus the distance between two feature rows. -/
def negDist (f g : Fin 64 → EReal) : EReal := -(Ideal.sqrt ((∑ c : Fin 64, (f c - g c) * (f c - g c)) + eps))

/-- The largest of a point's 35 scores. -/
def rowMax (d : Fin 35 → EReal) : EReal := (Finset.univ : Finset (Fin 35)).fold max negInf d

/-- The weight of neighbour `k`. -/
def weight (d : Fin 35 → EReal) (k : Fin 35) : EReal := Ideal.exp (Ideal.div (d k - rowMax d) temp)

/-- A point's loss from its scores `d` and its same-label indicators `p`. -/
def rowLoss (d p : Fin 35 → EReal) : EReal :=
  -(Ideal.log (Ideal.div (∑ k : Fin 35, weight d k * p k) (∑ k : Fin 35, weight d k) + eps))

/-- A bit as the number 0 or 1. -/
def ind (b : BitVec 1) : EReal := ((b.toNat : ℝ) : EReal)

/-- Whether a point counts: strictly between 0 and 35 of its neighbours share its label. -/
def valid (p : Fin 35 → EReal) : BitVec 1 :=
  IntOp.andi (Ideal.cmp .ogt (∑ k : Fin 35, p k) 0) (Ideal.cmp .olt (∑ k : Fin 35, p k) kf)

/-! ## A point's data, read off arrays with one row per point

`R` is the number of rows of the arrays at hand: 400 for one block, 100000 for the whole input. -/

open ValueIdx

/-- Point `r`'s own features. -/
def feat {R : Nat} (x : (⟨2, ![R, 64]⟩ : Shape).Idx → EReal) (r : Fin R) : Fin 64 → EReal := fun c => x (ix2 r c)

/-- The features of point `r`'s neighbour `k`. -/
def nbr {R : Nat} (nf : (⟨3, ![R, 35, 64]⟩ : Shape).Idx → EReal) (r : Fin R) (k : Fin 35) : Fin 64 → EReal :=
  fun c => nf (ix3 r k c)

/-- Point `r`'s 35 scores. -/
def scores {R : Nat} (x : (⟨2, ![R, 64]⟩ : Shape).Idx → EReal) (nf : (⟨3, ![R, 35, 64]⟩ : Shape).Idx → EReal) (r : Fin R) :
    Fin 35 → EReal := fun k => negDist (feat x r) (nbr nf r k)

/-- Point `r`'s same-label indicators, from the column of the points' labels and the array of their neighbours' labels. -/
def same {R : Nat} (lc : (⟨2, ![R, 1]⟩ : Shape).Idx → BitVec 32) (nl : (⟨2, ![R, 35]⟩ : Shape).Idx → BitVec 32) (r : Fin R) :
    Fin 35 → EReal := fun k => ind (IntOp.cmpi .eq (lc (ix2 r (0 : Fin 1))) (nl (ix2 r k)))

/-- Point `r`'s contribution to the count of valid points: 1 or 0. -/
def rowCount {R : Nat} (lc : (⟨2, ![R, 1]⟩ : Shape).Idx → BitVec 32) (nl : (⟨2, ![R, 35]⟩ : Shape).Idx → BitVec 32) (r : Fin R) : EReal :=
  ind (valid (same lc nl r))

/-- Point `r`'s contribution to the sum of losses: its loss if it is valid, times 0 if not. -/
def rowTerm {R : Nat} (x : (⟨2, ![R, 64]⟩ : Shape).Idx → EReal) (nf : (⟨3, ![R, 35, 64]⟩ : Shape).Idx → EReal)
    (lc : (⟨2, ![R, 1]⟩ : Shape).Idx → BitVec 32) (nl : (⟨2, ![R, 35]⟩ : Shape).Idx → BitVec 32) (r : Fin R) : EReal :=
  rowLoss (scores x nf r) (same lc nl r) * rowCount lc nl r

/-- The mean over the valid points, from the sum of their losses and their number. -/
def outcome (L C : EReal) : EReal := Ideal.div L (max C one) * one

end Cert.Contrast

end
-- ==== Proof.RefSide.lean ====
/-
  What the reference program computes, in the specification's vocabulary.

  For every point r the reference computes its 35 scores -sqrt (sum over the 64 features of the squared difference to the
  neighbour's features, plus epsilon), their maximum from minus infinity, the weights exp ((score - maximum) / temperature),
  the loss -log (sum of weight * p / sum of weight + epsilon), where p is 1 on the neighbours with the point's own label,
  and the validity bit from the 32-bit integer count of those neighbours being above 0 and below 35. It returns
  (sum over r of loss r * valid r) / max (sum over r of valid r) 1 * 1. Each of these is the specification's function of
  point r's own data: its feature row, its neighbours' gathered feature rows, its label and its neighbours' gathered labels.
  The two gathered arrays are kept as they are.
-/
import proofs.«138425_j33517924778311_2_alg».proof.Proof.Gen.ReferenceIdeal.Read
import proofs.«138425_j33517924778311_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Read Cert.Contrast Idealize.ShloMosaic Idealize.ShloMosaic.ValueIdx
open scoped BigOperators

/-! ## The squared feature differences and the scores -/

/-- The squared difference of feature `c` between point `r` and its neighbour `k`. -/
theorem sqdiff_apply (x0 : (⟨S100000x64, .f32⟩ : BufTy).Contents (Elt Ideal)) (x2 : (⟨S100000x35, .i32⟩ : BufTy).Contents (Elt Ideal))
    (r : Fin 100000) (k : Fin 35) (c : Fin 64) :
    val_main_v27 (F := Ideal) x0 x2 (ix3 r k c)
      = (feat x0 r c - nbr (val_main_v13 (F := Ideal) x0 x2) r k c) * (feat x0 r c - nbr (val_main_v13 (F := Ideal) x0 x2) r k c) := by
  have e1 : idx_main_v24 (idx_main_v25 (ix3 r k c)) = ix2 r c :=
    funext fun a => Fin.ext (by match a with | ⟨0, _⟩ => rfl | ⟨1, _⟩ => rfl)
  rw [val_main_v27_apply, val_main_v26_apply, val_main_v25_apply, val_main_v24_apply, e1]
  rfl

/-- The score of neighbour `k` of point `r`: minus the distance between the two feature rows. -/
theorem score_apply (x0 : (⟨S100000x64, .f32⟩ : BufTy).Contents (Elt Ideal)) (x2 : (⟨S100000x35, .i32⟩ : BufTy).Contents (Elt Ideal))
    (r : Fin 100000) (k : Fin 35) :
    val_main_v32 (F := Ideal) x0 x2 (ix2 r k) = scores x0 (val_main_v13 (F := Ideal) x0 x2) r k := by
  have e1 : ∀ c : Fin 64, idx_main_v28 (ix2 r k) c = ix3 r k c := fun c =>
    funext fun a => Fin.ext (by match a with | ⟨0, _⟩ => rfl | ⟨1, _⟩ => rfl | ⟨2, _⟩ => rfl)
  rw [val_main_v32_apply, val_main_v31_apply, val_main_v30_apply, val_main_v28_apply, val_main_v29_apply,
    val_main_cst_apply, val_main_cst_6_apply]
  simp only [e1, sqdiff_apply, Ideal.ofBits_def, Ideal.ofBits_zero_f32, zero_add, Ideal.hostNegf_def, Ideal.negf_def,
    Ideal.hostUnary_sqrt_def, Ideal.addf_def]
  rfl

/-! ## The maximum over a point's neighbours -/

/-- The index of point `r` with neighbour `k` put back on the reduced axis is (r, k). -/
theorem lift_ix2 (h : S100000x35.Reduces [1] S100000) (r : Fin 100000) (k : Fin (S100000x35.size 1)) :
    h.lift (ix1 r) k = ix2 r (⟨k.val, k.isLt⟩ : Fin 35) := by
  funext c; apply Fin.ext
  fin_cases c <;> rfl

/-- Point `r`'s row maximum: the largest of its 35 scores, starting from minus infinity. -/
theorem rowMax_apply (x0 : (⟨S100000x64, .f32⟩ : BufTy).Contents (Elt Ideal)) (x2 : (⟨S100000x35, .i32⟩ : BufTy).Contents (Elt Ideal))
    (r : Fin 100000) :
    val_main_v33 (F := Ideal) x0 x2 (ix1 r) = rowMax (scores x0 (val_main_v13 (F := Ideal) x0 x2) r) := by
  have h : S100000x35.Reduces [1] S100000 := by decide
  unfold val_main_v33
  rw [Host.reduce_eq_fold_single FloatOps.maximumf _ _ _ h]
  have hf : (val_main_v32 (F := Ideal) x0 x2 ∘ h.lift (ix1 r)) = scores x0 (val_main_v13 (F := Ideal) x0 x2) r :=
    funext fun k => by
      show val_main_v32 (F := Ideal) x0 x2 (h.lift (ix1 r) k) = _
      rw [lift_ix2 h r k]
      exact score_apply x0 x2 r ⟨k.val, k.isLt⟩
  rw [hf]
  rfl

/-! ## The weights and the same-label indicators -/

/-- The weight of neighbour `k` of point `r`: the exponential of its score less the row maximum, over the temperature. -/
theorem weight_apply (x0 : (⟨S100000x64, .f32⟩ : BufTy).Contents (Elt Ideal)) (x2 : (⟨S100000x35, .i32⟩ : BufTy).Contents (Elt Ideal))
    (r : Fin 100000) (k : Fin 35) :
    val_main_v39 (F := Ideal) x0 x2 (ix2 r k) = weight (scores x0 (val_main_v13 (F := Ideal) x0 x2) r) k := by
  have e1 : idx_main_v34 (idx_main_v35 (ix2 r k)) = ix1 r :=
    funext fun a => Fin.ext (by match a with | ⟨0, _⟩ => rfl)
  rw [val_main_v39_apply, val_main_v38_apply, val_main_v36_apply, val_main_v35_apply, val_main_v34_apply, e1,
    val_main_v37_apply, val_main_cst_8_apply, score_apply, rowMax_apply]
  rfl

/-- Whether neighbour `k` of point `r` carries the point's label, as the number 0 or 1. -/
theorem same_apply (x1 : (⟨S100000, .i32⟩ : BufTy).Contents (Elt Ideal)) (x2 : (⟨S100000x35, .i32⟩ : BufTy).Contents (Elt Ideal))
    (r : Fin 100000) (k : Fin 35) :
    val_main_v40 (F := Ideal) x1 x2 (ix2 r k) = same (val_main_v14 (F := Ideal) x1) (val_main_v6 (F := Ideal) x1 x2) r k := by
  have e1 : idx_main_v15 (ix2 r k) = ix2 r (0 : Fin 1) :=
    funext fun a => Fin.ext (by match a with | ⟨0, _⟩ => rfl | ⟨1, _⟩ => rfl)
  rw [val_main_v40_apply, val_main_v16_apply, val_main_v15_apply, e1]
  rfl

/-! ## A point's loss and its validity -/

/-- Point `r`'s loss: minus the logarithm of the weighted share of its same-label neighbours, plus epsilon. -/
theorem rowLoss_apply (x0 : (⟨S100000x64, .f32⟩ : BufTy).Contents (Elt Ideal)) (x1 : (⟨S100000, .i32⟩ : BufTy).Contents (Elt Ideal))
    (x2 : (⟨S100000x35, .i32⟩ : BufTy).Contents (Elt Ideal)) (r : Fin 100000) :
    val_main_v48 (F := Ideal) x0 x1 x2 (ix1 r)
      = rowLoss (scores x0 (val_main_v13 (F := Ideal) x0 x2) r) (same (val_main_v14 (F := Ideal) x1) (val_main_v6 (F := Ideal) x1 x2) r) := by
  have e1 : ∀ k : Fin 35, idx_main_v42 (ix1 r) k = ix2 r k := fun k =>
    funext fun a => Fin.ext (by match a with | ⟨0, _⟩ => rfl | ⟨1, _⟩ => rfl)
  have e2 : ∀ k : Fin 35, idx_main_v43 (ix1 r) k = ix2 r k := fun k =>
    funext fun a => Fin.ext (by match a with | ⟨0, _⟩ => rfl | ⟨1, _⟩ => rfl)
  rw [val_main_v48_apply, val_main_v47_apply, val_main_v46_apply, val_main_v44_apply, val_main_v42_apply, val_main_v43_apply,
    val_main_v45_apply, val_main_cst_9_apply, val_main_cst_10_apply, val_main_cst_11_apply]
  simp only [e1, e2, val_main_v41_apply, weight_apply, same_apply, Ideal.ofBits_def, Ideal.ofBits_zero_f32, zero_add,
    Ideal.hostNegf_def, Ideal.negf_def, Ideal.hostUnary_log_def, Ideal.addf_def, Ideal.hostDivf_def, Ideal.mulf_def]
  rfl

/-- Point `r`'s validity bit: the integer count of its same-label neighbours is above 0 and below 35. -/
theorem valid_apply
    (hcount : ∀ b : Fin 35 → BitVec 1,
        IntOp.andi (IntOp.cmpi .sgt ((Finset.univ : Finset (Fin 35)).fold IntOp.addi 0#32 (fun k => (b k).setWidth 32)) 0#32)
                   (IntOp.cmpi .slt ((Finset.univ : Finset (Fin 35)).fold IntOp.addi 0#32 (fun k => (b k).setWidth 32)) 35#32)
          = valid (fun k => ind (b k)))
    (x1 : (⟨S100000, .i32⟩ : BufTy).Contents (Elt Ideal)) (x2 : (⟨S100000x35, .i32⟩ : BufTy).Contents (Elt Ideal)) (r : Fin 100000) :
    val_main_v23 (F := Ideal) x1 x2 (ix1 r) = valid (same (val_main_v14 (F := Ideal) x1) (val_main_v6 (F := Ideal) x1 x2) r) := by
  have h : S100000x35.Reduces [1] S100000 := by decide
  have e1 : ∀ k : Fin 35, idx_main_v15 (ix2 r k) = ix2 r (0 : Fin 1) := fun k =>
    funext fun a => Fin.ext (by match a with | ⟨0, _⟩ => rfl | ⟨1, _⟩ => rfl)
  have hsum : val_main_v18 (F := Ideal) x1 x2 (ix1 r)
      = (Finset.univ : Finset (Fin 35)).fold IntOp.addi 0#32 (fun k =>
          (IntOp.cmpi .eq (val_main_v14 (F := Ideal) x1 (ix2 r (0 : Fin 1))) (val_main_v6 (F := Ideal) x1 x2 (ix2 r k))).setWidth 32) := by
    unfold val_main_v18
    rw [Host.reduce_eq_fold_single IntOp.addi _ _ _ h]
    have hf : (val_main_v17 (F := Ideal) x1 x2 ∘ h.lift (ix1 r)) = fun k : Fin 35 =>
        (IntOp.cmpi .eq (val_main_v14 (F := Ideal) x1 (ix2 r (0 : Fin 1))) (val_main_v6 (F := Ideal) x1 x2 (ix2 r k))).setWidth 32 :=
      funext fun k => by
        show val_main_v17 (F := Ideal) x1 x2 (h.lift (ix1 r) k) = _
        rw [lift_ix2 h r k, val_main_v17_apply, val_main_v16_apply, val_main_v15_apply, e1]
        rfl
    rw [hf]
    rfl
  rw [val_main_v23_apply, val_main_v20_apply, val_main_v22_apply, hsum, val_main_v19_apply, val_main_v21_apply,
    val_main_c_4_apply, val_main_c_5_apply]
  exact hcount fun k => IntOp.cmpi .eq (val_main_v14 (F := Ideal) x1 (ix2 r (0 : Fin 1))) (val_main_v6 (F := Ideal) x1 x2 (ix2 r k))

/-! ## The mean over the valid points -/

/-- A sum over the indices of a 100000-vector is the sum over its coordinate. -/
theorem sum_idx1 (f : S100000.Idx → EReal) : ∑ j : S100000.Idx, f j = ∑ r : Fin 100000, f (ix1 r) :=
  Fintype.sum_equiv ⟨fun j => j 0, fun r => ix1 r, fun j => (eq_ix1 j).symm, fun _ => rfl⟩ f (fun r => f (ix1 r))
    (fun j => congrArg f (eq_ix1 j))

/-- The reference computes, for every point, its 35 scores, their maximum, the weights, the loss and the validity bit,
    each the specification's function of the point's own data, and returns the sum of the valid points' losses over the
    larger of their number and 1, times 1. -/
theorem result_eq
    (hcount : ∀ b : Fin 35 → BitVec 1,
        IntOp.andi (IntOp.cmpi .sgt ((Finset.univ : Finset (Fin 35)).fold IntOp.addi 0#32 (fun k => (b k).setWidth 32)) 0#32)
                   (IntOp.cmpi .slt ((Finset.univ : Finset (Fin 35)).fold IntOp.addi 0#32 (fun k => (b k).setWidth 32)) 35#32)
          = valid (fun k => ind (b k)))
    (x0 : (⟨S100000x64, .f32⟩ : BufTy).Contents (Elt Ideal)) (x1 : (⟨S100000, .i32⟩ : BufTy).Contents (Elt Ideal))
    (x2 : (⟨S100000x35, .i32⟩ : BufTy).Contents (Elt Ideal)) :
    val_main_v55 (F := Ideal) x0 x1 x2
      = fun _ => outcome
          (∑ r : Fin 100000, rowTerm x0 (val_main_v13 (F := Ideal) x0 x2) (val_main_v14 (F := Ideal) x1) (val_main_v6 (F := Ideal) x1 x2) r)
          (∑ r : Fin 100000, rowCount (val_main_v14 (F := Ideal) x1) (val_main_v6 (F := Ideal) x1 x2) r) := by
  funext i
  have hc : ∀ r : Fin 100000, val_main_v49 (F := Ideal) x1 x2 (ix1 r)
      = rowCount (val_main_v14 (F := Ideal) x1) (val_main_v6 (F := Ideal) x1 x2) r := fun r => by
    rw [val_main_v49_apply, valid_apply hcount]
    rfl
  have ht : ∀ r : Fin 100000, val_main_v52 (F := Ideal) x0 x1 x2 (ix1 r)
      = rowTerm x0 (val_main_v13 (F := Ideal) x0 x2) (val_main_v14 (F := Ideal) x1) (val_main_v6 (F := Ideal) x1 x2) r := fun r => by
    rw [val_main_v52_apply, rowLoss_apply, hc]
    rfl
  rw [val_main_v55_apply, val_main_v54_apply, val_main_v53_apply, val_main_v51_apply, val_main_v50_apply, sum_idx1, sum_idx1,
    val_main_cst_12_apply, val_main_cst_13_apply, val_main_cst_14_apply, val_main_cst_15_apply]
  simp only [hc, ht, Ideal.ofBits_def, Ideal.ofBits_zero_f32, zero_add, Ideal.hostDivf_def, Ideal.mulf_def, Ideal.maximumf_def]
  rfl

end Cert.ReferenceIdeal.RefValue

end
-- ==== Proof.LibFinSum.lean ====
/-
  A sum over `Fin (m * n)` as a double sum over quotient and remainder.

  Every `i < m * n` is `a * n + b` for exactly one pair `a < m`, `b < n`, so in any commutative monoid the sum of `f` over
  `Fin (m * n)` is the sum over `a` of the sum over `b` of `f (a * n + b)`. This is the only re-indexing a tiled sum needs.
-/
import Mathlib.Algebra.BigOperators.Fin
import Mathlib.Logic.Equiv.Fin.Basic

open scoped BigOperators

namespace Cert.FinSum

/-- `a * n + b < m * n` for `a < m`, `b < n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The sum over `Fin k`, `k = m * n`, is the sum over quotients `a` of the sum over remainders `b` at `a * n + b`. -/
theorem sum_mul {M : Type*} [AddCommMonoid M] (m n k : ℕ) (hk : m * n = k) (f : Fin k → M) :
    ∑ i : Fin k, f i = ∑ a : Fin m, ∑ b : Fin n, f ⟨a.val * n + b.val, hk ▸ lt_mul a b⟩ := by
  subst hk
  rw [← finProdFinEquiv.sum_comp, Fintype.sum_prod_type]
  refine Finset.sum_congr rfl fun a _ => Finset.sum_congr rfl fun b _ => congrArg f (Fin.ext ?_)
  show b.val + n * a.val = a.val * n + b.val
  rw [Nat.mul_comm, Nat.add_comm]

/-- A sequence built by "start from `z` plus the first term, then add one more term at each step" is, at step `n`,
    `z` plus the sum of the first `n + 1` terms. -/
theorem sum_of_steps {M : Type*} [AddCommMonoid M] (N : ℕ) (a : (n : ℕ) → n < N → M) (p : Fin N → M) (z : M)
    (h0 : ∀ h : 0 < N, a 0 h = z + p ⟨0, h⟩)
    (hs : ∀ (n : ℕ) (h : n + 1 < N), a (n + 1) h = a n (Nat.lt_of_succ_lt h) + p ⟨n + 1, h⟩) :
    ∀ (n : ℕ) (h : n < N), a n h = z + ∑ t : Fin (n + 1), p ⟨t.val, lt_of_lt_of_le t.isLt h⟩
  | 0, h => by
    rw [h0 h, Fin.sum_univ_one]
    rfl
  | n + 1, h => by
    rw [hs n h, sum_of_steps N a p z h0 hs n (Nat.lt_of_succ_lt h), add_assoc]
    refine congrArg (z + ·) ?_
    exact (Fin.sum_univ_castSucc (fun t : Fin (n + 1 + 1) => p ⟨t.val, lt_of_lt_of_le t.isLt h⟩)).symm

end Cert.FinSum
-- ==== Proof.Count.lean ====
/-
  Counting a point's same-label neighbours, and the rows of the whole input as blocks.

  * The word 0x420C0000 has sign 0, exponent 132 and fraction 0x0C0000, so it denotes
    (2^23 + 786432) * 2^(132 - 127 - 23) = 9175040 / 262144 = 35.
  * For 35 bits b k, let n be the number of k with b k = 1. The 32-bit wrapping sum of the bits widened to 32 bits is the
    word of n: each term is 0 or 1, so n ≤ 35 < 2^31 and nothing wraps; read as a signed integer that word is n again.
    The extended-real sum of the indicators of the bits is the real number n. So "0 < sum and sum < 35" says 0 < n < 35
    on both sides, whether the sum is taken in 32-bit integers and compared as signed integers, or taken in the
    extended reals and compared with 0 and with the value 35 of the word above.
  * A bit widened to 32 bits and read as a signed integer is 0 or 1, the same number as its indicator.
  * Every r < 100000 is (c * 125 + i) * 400 + y for exactly one c < 2, i < 125, y < 400 (100000 = 250 * 400 and
    250 = 2 * 125), so a sum over the 100000 rows is the triple sum over c, i and y.
-/
import proofs.«138425_j33517924778311_2_alg».proof.Proof.Spec
import proofs.«138425_j33517924778311_2_alg».proof.Proof.LibFinSum
import Idealize.ShloMosaic.PureOps.Reduce
import Mathlib.Data.EReal.Basic

open Idealize.ShloMosaic
open scoped BigOperators

namespace Cert.Contrast

/-- The word of 35 denotes 35. -/
theorem kf_eq : kf = ((35 : ℝ) : EReal) := by
  simp [kf, Ideal.ofBits, Ideal.ieee, -EReal.coe_mul]
  norm_num

/-- The wrapping sum of widened bits over any set of neighbours is the word of the number of ones among them. -/
theorem fold_addi_eq (b : Fin 35 → BitVec 1) (s : Finset (Fin 35)) :
    s.fold IntOp.addi 0#32 (fun k => (b k).setWidth 32) = BitVec.ofNat 32 (∑ k ∈ s, (b k).toNat) := by
  induction s using Finset.induction_on with
  | empty => simp
  | insert a s ha ih =>
    rw [Finset.fold_insert ha, ih, Finset.sum_insert ha, BitVec.ofNat_add]
    show (b a).setWidth 32 + _ = _
    congr 1
    apply BitVec.eq_of_toNat_eq
    simp

/-- The extended-real sum of the indicators over any set of neighbours is the number of ones among them. -/
theorem sum_ind_eq (b : Fin 35 → BitVec 1) (s : Finset (Fin 35)) :
    ∑ k ∈ s, ind (b k) = (((∑ k ∈ s, (b k).toNat : ℕ) : ℝ) : EReal) := by
  induction s using Finset.induction_on with
  | empty => simp
  | insert a s ha ih =>
    rw [Finset.sum_insert ha, ih, Finset.sum_insert ha, Nat.cast_add, EReal.coe_add]
    rfl

/-- Among 35 bits at most 35 are ones. -/
theorem count_le (b : Fin 35 → BitVec 1) : ∑ k : Fin 35, (b k).toNat ≤ 35 := by
  calc ∑ k : Fin 35, (b k).toNat ≤ ∑ _k : Fin 35, 1 := Finset.sum_le_sum (fun k _ => by have := (b k).isLt; omega)
    _ = 35 := by simp

/-- The integer test "0 < count < 35" on the wrapping sum of the bits is the validity test on their indicators. -/
theorem valid_of_int_count (b : Fin 35 → BitVec 1) :
    IntOp.andi (IntOp.cmpi .sgt ((Finset.univ : Finset (Fin 35)).fold IntOp.addi 0#32 (fun k => (b k).setWidth 32)) 0#32)
               (IntOp.cmpi .slt ((Finset.univ : Finset (Fin 35)).fold IntOp.addi 0#32 (fun k => (b k).setWidth 32)) 35#32)
      = valid (fun k => ind (b k)) := by
  have hle := count_le b
  rw [fold_addi_eq, valid, sum_ind_eq, kf_eq]
  generalize (∑ k : Fin 35, (b k).toNat) = n at hle ⊢
  have h1 : IntOp.cmpi .sgt (BitVec.ofNat 32 n) 0#32 = BitVec.ofBool (decide (0 < n)) := by
    show BitVec.ofBool ((0#32).slt (BitVec.ofNat 32 n)) = _
    congr 1
    rw [BitVec.slt]
    apply decide_eq_decide.mpr
    rw [BitVec.toInt_eq_toNat_cond, BitVec.toInt_eq_toNat_cond, BitVec.toNat_ofNat, BitVec.toNat_ofNat]
    omega
  have h2 : IntOp.cmpi .slt (BitVec.ofNat 32 n) 35#32 = BitVec.ofBool (decide (n < 35)) := by
    show BitVec.ofBool ((BitVec.ofNat 32 n).slt 35#32) = _
    congr 1
    rw [BitVec.slt]
    apply decide_eq_decide.mpr
    rw [BitVec.toInt_eq_toNat_cond, BitVec.toInt_eq_toNat_cond, BitVec.toNat_ofNat, BitVec.toNat_ofNat]
    omega
  have h3 : Ideal.cmp .ogt (((n : ℕ) : ℝ) : EReal) 0 = BitVec.ofBool (decide (0 < n)) := by
    show BitVec.ofBool (decide ((0 : EReal) < (((n : ℕ) : ℝ) : EReal))) = _
    congr 1
    apply decide_eq_decide.mpr
    rw [EReal.coe_pos, Nat.cast_pos]
  have h4 : Ideal.cmp .olt (((n : ℕ) : ℝ) : EReal) ((35 : ℝ) : EReal) = BitVec.ofBool (decide (n < 35)) := by
    show BitVec.ofBool (decide ((((n : ℕ) : ℝ) : EReal) < ((35 : ℝ) : EReal))) = _
    congr 1
    apply decide_eq_decide.mpr
    rw [EReal.coe_lt_coe_iff]
    exact_mod_cast Iff.rfl
  rw [h1, h2, h3, h4]

/-- A bit widened to 32 bits, read as a signed integer, is its indicator. -/
theorem ind_of_signed (b : BitVec 1) : ((((b.setWidth 32).toInt : ℤ) : ℝ) : EReal) = ind b := by
  rcases BitVec.eq_zero_or_eq_one b with h | h <;> subst h <;> simp [ind]

/-- Block `c`, sub-block `i`, offset `y` name a row below 100000. -/
theorem row_lt (c : Fin 2) (i : Fin 125) (y : Fin 400) : (c.val * 125 + i.val) * 400 + y.val < 100000 := by
  have := c.isLt; have := i.isLt; have := y.isLt; omega

/-- A sum over the 100000 rows is the sum over 2 halves, 125 blocks in each, 400 rows in each block. -/
theorem sum_rows {M : Type*} [AddCommMonoid M] (f : Fin 100000 → M) :
    ∑ r : Fin 100000, f r = ∑ c : Fin 2, ∑ i : Fin 125, ∑ y : Fin 400, f ⟨(c.val * 125 + i.val) * 400 + y.val, row_lt c i y⟩ := by
  rw [Cert.FinSum.sum_mul 250 400 100000 (by norm_num) f]
  rw [Cert.FinSum.sum_mul 2 125 250 (by norm_num) (fun a : Fin 250 => ∑ y : Fin 400, f ⟨a.val * 400 + y.val, _⟩)]

end Cert.Contrast
-- ==== Proof.Pieces.lean ====
/-
  What one run of the kernel's body leaves in its two accumulator buffers, as values.

  The body keeps two [1, 8, 128] accumulators, one for the masked loss and one for the number of valid rows. At the
  first point of a core's run of 125 points it overwrites both with zeros; at every point it then reads each back and
  stores it again with the block's partial sum added to every entry. So whichever case a point is in, each buffer ends
  as the payload of its last store, which covers the whole buffer: at a later point that payload applied to what the
  buffer held before, at a first point applied to the zero block.
-/
import proofs.«138425_j33517924778311_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that is not the first of its core's run, the loss accumulator's buffer, found holding `xo4`, is left
    holding the payload of the one store that covers it: `xo4` plus the block's masked loss sum in every entry. -/
theorem out_B_4 (c : Dev nD) (i : grid0.Coords) (a2 : Memref sig .tc .vmem S400x64 .f32) (h2 : a2.IsWhole) (a3 : Memref sig .tc .vmem S400x35x64 .bf16) (h3 : a3.IsWhole) (a4 : Memref sig .tc .vmem S400x35 .i32) (h4 : a4.IsWhole) (a5 : Memref sig .tc .vmem S400x1 .i32) (h5 : a5.IsWhole) (a6 : Memref sig .tc .vmem S1x8x128 .f32) (h6 : a6.IsWhole) (a7 : Memref sig .tc .vmem S1x8x128 .f32) (h7 : a7.IsWhole) (hc : ¬cond0_0 i)
    (x0 : Vec F S400x64 .f32) (x1 : Vec F S400x35x64 .bf16) (x2 : Vec F S400x35 .i32) (x3 : Vec F S400x1 .i32) (xo4 xo5 : Vec F S1x8x128 .f32) :
    out0_B_4 c i a2 h2 a3 h3 a4 h4 a5 h5 a6 h6 a7 h7 hc x0 x1 x2 x3 xo4 xo5
      = k0_pay1 (k0_pay5 x2 x3) (k0_pay6 x2 x3) (k0_pay7 x0 x1) (Scalar.ofBits .f32 0x3DCCCCCD#32) xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x8x128) hz3, View.ld_unit_zero (S := S400x64) hz2, View.ld_unit_zero (S := S400x35x64) hz3,
    View.ld_unit_zero (S := S400x35) hz2, View.ld_unit_zero (S := S400x1) hz2]

/-- The same for the count accumulator: `xo5` plus the number of valid rows of the block. -/
theorem out_B_5 (c : Dev nD) (i : grid0.Coords) (a2 : Memref sig .tc .vmem S400x64 .f32) (h2 : a2.IsWhole) (a3 : Memref sig .tc .vmem S400x35x64 .bf16) (h3 : a3.IsWhole) (a4 : Memref sig .tc .vmem S400x35 .i32) (h4 : a4.IsWhole) (a5 : Memref sig .tc .vmem S400x1 .i32) (h5 : a5.IsWhole) (a6 : Memref sig .tc .vmem S1x8x128 .f32) (h6 : a6.IsWhole) (a7 : Memref sig .tc .vmem S1x8x128 .f32) (h7 : a7.IsWhole) (hc : ¬cond0_0 i)
    (x0 : Vec F S400x64 .f32) (x1 : Vec F S400x35x64 .bf16) (x2 : Vec F S400x35 .i32) (x3 : Vec F S400x1 .i32) (xo4 xo5 : Vec F S1x8x128 .f32) :
    out0_B_5 c i a2 h2 a3 h3 a4 h4 a5 h5 a6 h6 a7 h7 hc x0 x1 x2 x3 xo4 xo5 = k0_pay2 (k0_pay6 x2 x3) xo5 := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x8x128) hz3, View.ld_unit_zero (S := S400x64) hz2, View.ld_unit_zero (S := S400x35x64) hz3,
    View.ld_unit_zero (S := S400x35) hz2, View.ld_unit_zero (S := S400x1) hz2]

/-- At the first point of a core's run the buffer is first overwritten with zeros, and the store that follows reads
    those zeros back: the loss accumulator is left at zero plus the block's masked loss sum. -/
theorem out_A_4 (c : Dev nD) (i : grid0.Coords) (a2 : Memref sig .tc .vmem S400x64 .f32) (h2 : a2.IsWhole) (a3 : Memref sig .tc .vmem S400x35x64 .bf16) (h3 : a3.IsWhole) (a4 : Memref sig .tc .vmem S400x35 .i32) (h4 : a4.IsWhole) (a5 : Memref sig .tc .vmem S400x1 .i32) (h5 : a5.IsWhole) (a6 : Memref sig .tc .vmem S1x8x128 .f32) (h6 : a6.IsWhole) (a7 : Memref sig .tc .vmem S1x8x128 .f32) (h7 : a7.IsWhole) (hc : cond0_0 i)
    (x0 : Vec F S400x64 .f32) (x1 : Vec F S400x35x64 .bf16) (x2 : Vec F S400x35 .i32) (x3 : Vec F S400x1 .i32) :
    out0_A_4 c i a2 h2 a3 h3 a4 h4 a5 h5 a6 h6 a7 h7 hc x0 x1 x2 x3
      = k0_pay1 (k0_pay5 x2 x3) (k0_pay6 x2 x3) (k0_pay7 x0 x1) (Scalar.ofBits .f32 0x3DCCCCCD#32) (k0_pay3 (F := F)) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread,
    View.ld_unit_zero (S := S1x8x128) hz3, View.ld_unit_zero (S := S400x64) hz2, View.ld_unit_zero (S := S400x35x64) hz3,
    View.ld_unit_zero (S := S400x35) hz2, View.ld_unit_zero (S := S400x1) hz2]

/-- And the count accumulator at zero plus the block's number of valid rows. -/
theorem out_A_5 (c : Dev nD) (i : grid0.Coords) (a2 : Memref sig .tc .vmem S400x64 .f32) (h2 : a2.IsWhole) (a3 : Memref sig .tc .vmem S400x35x64 .bf16) (h3 : a3.IsWhole) (a4 : Memref sig .tc .vmem S400x35 .i32) (h4 : a4.IsWhole) (a5 : Memref sig .tc .vmem S400x1 .i32) (h5 : a5.IsWhole) (a6 : Memref sig .tc .vmem S1x8x128 .f32) (h6 : a6.IsWhole) (a7 : Memref sig .tc .vmem S1x8x128 .f32) (h7 : a7.IsWhole) (hc : cond0_0 i)
    (x0 : Vec F S400x64 .f32) (x1 : Vec F S400x35x64 .bf16) (x2 : Vec F S400x35 .i32) (x3 : Vec F S400x1 .i32) :
    out0_A_5 c i a2 h2 a3 h3 a4 h4 a5 h5 a6 h6 a7 h7 hc x0 x1 x2 x3 = k0_pay2 (k0_pay6 x2 x3) (k0_pay4 (F := F)) := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, h6.read_unread, h7.read_unread,
    View.ld_unit_zero (S := S1x8x128) hz3, View.ld_unit_zero (S := S400x64) hz2, View.ld_unit_zero (S := S400x35x64) hz3,
    View.ld_unit_zero (S := S400x35) hz2, View.ld_unit_zero (S := S400x1) hz2]

end Cert.KernelIdeal.Pieces
end
-- ==== Proof.KStages.lean ====
/-
  The kernel body's arithmetic on one block of 400 points, read entry by entry on the extended reals.

  The body's vectors are built from a few layout steps around pointwise arithmetic: a sum or a maximum over the 35
  neighbours kept as a column, a column spread back over the 35 neighbours, the point's 64 features spread over its
  neighbours, a sum over the 64 features, and the sum of a column of 400 entries spread over a whole accumulator tile.
  Each is named here and read at an entry; the printed payloads are these names composed, so each payload read at an
  entry is the specification's function of the data of the one point the entry belongs to.
-/
import proofs.«138425_j33517924778311_2_alg».proof.Proof.Gen.KernelIdeal.Skeleton
import proofs.«138425_j33517924778311_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Stages

open Cert.KernelIdeal Cert.KernelIdeal.Gen Cert.Contrast

/-! ## The layout steps -/

/-- The sum over the 35 neighbours, kept as a column. -/
def sum35 (v : FVec Ideal S400x35 .f32) : FVec Ideal S400x1 .f32 :=
  shapeCast S400x1 (multiReduction .add [1] S400 v 0x00000000#32 reduces_S400x35_S400 (.inl rfl) rfl) shapeCasts_S400_S400x1

theorem sum35_apply (v : FVec Ideal S400x35 .f32) (y : Fin 400) (u : Fin 1) :
    sum35 v (ix2 y u) = ∑ k : Fin 35, v (ix2 y k) := by
  unfold sum35
  refine (shapeCast_apply _ shapeCasts_S400_S400x1 (ix2 y u) (ix1 y) ?_).trans ?_
  · rw [Shape.rowMajor_val_one, Shape.rowMajor_val_two]; show y.val = y.val * 1 + u.val; omega
  refine (Ideal.multiReduction_add_single v 0x00000000#32 reduces_S400x35_S400 (.inl rfl) rfl (ix1 y)).trans ?_
  refine Finset.sum_congr rfl fun k _ => ?_
  exact congrArg v (funext fun a => Fin.ext (by match a with | ⟨0, _⟩ => rfl | ⟨1, _⟩ => rfl))

/-- The maximum over the 35 neighbours, from minus infinity, kept as a column. -/
def max35 (v : FVec Ideal S400x35 .f32) : FVec Ideal S400x1 .f32 :=
  shapeCast S400x1 (multiReduction .maximumf [1] S400 v 0xFF800000#32 reduces_S400x35_S400 (.inl rfl) rfl) shapeCasts_S400_S400x1

theorem max35_apply (v : FVec Ideal S400x35 .f32) (y : Fin 400) (u : Fin 1) :
    max35 v (ix2 y u) = rowMax (fun k => v (ix2 y k)) := by
  unfold max35 rowMax
  refine (shapeCast_apply _ shapeCasts_S400_S400x1 (ix2 y u) (ix1 y) ?_).trans ?_
  · rw [Shape.rowMajor_val_one, Shape.rowMajor_val_two]; show y.val = y.val * 1 + u.val; omega
  refine (Ideal.multiReduction_maximumf_single v 0xFF800000#32 reduces_S400x35_S400 (.inl rfl) rfl (ix1 y)).trans ?_
  refine congrArg (fun f => Finset.fold max negInf f (Finset.univ : Finset (Fin 35))) ?_
  funext k
  exact congrArg v (funext fun a => Fin.ext (by match a with | ⟨0, _⟩ => rfl | ⟨1, _⟩ => rfl))

/-- A column spread over the 35 neighbours. -/
def spread35 {α : Type} (v : S400x1.Idx → α) : S400x35.Idx → α := broadcastTo S400x35 v broadcasts_S400x1_S400x35

theorem spread35_apply {α : Type} (v : S400x1.Idx → α) (y : Fin 400) (k : Fin 35) :
    spread35 v (ix2 y k) = v (ix2 y (0 : Fin 1)) := by
  unfold spread35
  refine broadcastTo_apply v broadcasts_S400x1_S400x35 (ix2 y k) (ix2 y (0 : Fin 1)) fun a => ?_
  match a with
  | ⟨0, _⟩ => show y.val = if (400 : Nat) = 1 then 0 else y.val; rw [if_neg (by decide)]
  | ⟨1, _⟩ => show 0 = if (1 : Nat) = 1 then 0 else k.val; rw [if_pos rfl]

/-- The sum over the 64 features. -/
def sum64 (v : FVec Ideal S400x35x64 .f32) : FVec Ideal S400x35 .f32 :=
  multiReduction .add [2] S400x35 v 0x00000000#32 reduces_S400x35x64_S400x35 (.inl rfl) rfl

theorem sum64_apply (v : FVec Ideal S400x35x64 .f32) (y : Fin 400) (k : Fin 35) :
    sum64 v (ix2 y k) = ∑ c : Fin 64, v (ix3 y k c) := by
  unfold sum64
  refine (Ideal.multiReduction_add_single v 0x00000000#32 reduces_S400x35x64_S400x35 (.inl rfl) rfl (ix2 y k)).trans ?_
  refine Finset.sum_congr rfl fun c _ => ?_
  exact congrArg v (funext fun a => Fin.ext (by match a with | ⟨0, _⟩ => rfl | ⟨1, _⟩ => rfl | ⟨2, _⟩ => rfl))

/-- A point's features spread over its 35 neighbours. -/
def spreadFeat (v : FVec Ideal S400x64 .f32) : FVec Ideal S400x35x64 .f32 :=
  broadcastTo S400x35x64 (shapeCast S400x1x64 v shapeCasts_S400x64_S400x1x64) broadcasts_S400x1x64_S400x35x64

theorem spreadFeat_apply (v : FVec Ideal S400x64 .f32) (y : Fin 400) (k : Fin 35) (c : Fin 64) :
    spreadFeat v (ix3 y k c) = v (ix2 y c) := by
  unfold spreadFeat
  refine (broadcastTo_apply _ broadcasts_S400x1x64_S400x35x64 (ix3 y k c) (ix3 y (0 : Fin 1) c) fun a => ?_).trans ?_
  · match a with
    | ⟨0, _⟩ => show y.val = if (400 : Nat) = 1 then 0 else y.val; rw [if_neg (by decide)]
    | ⟨1, _⟩ => show 0 = if (1 : Nat) = 1 then 0 else k.val; rw [if_pos rfl]
    | ⟨2, _⟩ => show c.val = if (64 : Nat) = 1 then 0 else c.val; rw [if_neg (by decide)]
  refine shapeCast_apply v shapeCasts_S400x64_S400x1x64 (ix3 y (0 : Fin 1) c) (ix2 y c) ?_
  rw [Shape.rowMajor_val_two, Shape.rowMajor_val_three]
  show y.val * 64 + c.val = (y.val * 1 + 0) * 64 + c.val
  omega

/-- The sum of a column of 400 entries, spread over a whole accumulator tile. -/
def total (v : FVec Ideal S400x1 .f32) : FVec Ideal S1x8x128 .f32 :=
  broadcastTo S1x8x128 (shapeCast S1x1x1 (shapeCast S1x1
    (multiReduction .add [0] S1 v 0x00000000#32 reduces_S400x1_S1 (.inl rfl) rfl) shapeCasts_S1_S1x1) shapeCasts_S1x1_S1x1x1)
    broadcasts_S1x1x1_S1x8x128

theorem total_apply (v : FVec Ideal S400x1 .f32) (j : S1x8x128.Idx) :
    total v j = ∑ y : Fin 400, v (ix2 y (0 : Fin 1)) := by
  unfold total
  refine (broadcastTo_apply _ broadcasts_S1x1x1_S1x8x128 j (ix3 (0 : Fin 1) (0 : Fin 1) (0 : Fin 1)) fun a => ?_).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show 0 = if (1 : Nat) = 1 then 0 else _; rw [if_pos rfl]
  refine (shapeCast_apply _ shapeCasts_S1x1_S1x1x1 (ix3 (0 : Fin 1) (0 : Fin 1) (0 : Fin 1)) (ix2 (0 : Fin 1) (0 : Fin 1)) ?_).trans ?_
  · rw [Shape.rowMajor_val_two, Shape.rowMajor_val_three]; rfl
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single v 0x00000000#32 reduces_S400x1_S1 (.inl rfl) rfl (ix1 (0 : Fin 1))).trans ?_
  refine Finset.sum_congr rfl fun y _ => ?_
  exact congrArg v (funext fun a => Fin.ext (by match a with | ⟨0, _⟩ => rfl | ⟨1, _⟩ => rfl))

end Cert.KernelIdeal.Stages

end
-- ==== Proof.KPayload.lean ====
/-
  The kernel body's payloads on one block of 400 points, read entry by entry: each is the specification's function of
  the data of the point the entry belongs to.

  For row y of the block: the same-label indicator of neighbour k; the validity of the point as 0 or 1; the point's
  score for neighbour k less the largest of its scores. The stored accumulator tiles are then, in every entry, what
  the tile held before plus the sum over the block's 400 rows of the rows' loss terms (for the loss tile) or of their
  validity (for the count tile).
-/
import proofs.«138425_j33517924778311_2_alg».proof.Proof.KStages

noncomputable section

open Idealize.ShloMosaic Idealize.ShloMosaic.ValueIdx
open scoped BigOperators

namespace Cert.KernelIdeal.Payload

open Cert.KernelIdeal Cert.KernelIdeal.Gen Cert.Contrast Cert.KernelIdeal.Stages

/-- A bit widened to 32 bits and read as a signed integer is the bit as a number. -/
theorem sitofp_bit (b : BitVec 1) : FloatOps.sitofp (F := Ideal) .f32 (b.setWidth 32) = ind b := by
  show (((b.setWidth 32).toInt : ℝ) : EReal) = ((b.toNat : ℝ) : EReal)
  rcases BitVec.eq_zero_or_eq_one b with h | h <;> subst h
  · rw [show ((0#1 : BitVec 1).setWidth 32).toInt = 0 from by decide, show (0#1 : BitVec 1).toNat = 0 from by decide]; simp
  · rw [show ((1#1 : BitVec 1).setWidth 32).toInt = 1 from by decide, show (1#1 : BitVec 1).toNat = 1 from by decide]; simp

/-- Entry (y, k) of the same-label mask: whether neighbour k of row y carries row y's label. -/
theorem pay5_apply (x2 : Vec Ideal S400x35 .i32) (x3 : Vec Ideal S400x1 .i32) (y : Fin 400) (k : Fin 35) :
    k0_pay5 (F := Ideal) x2 x3 (ix2 y k) = same x3 x2 y k := by
  unfold k0_pay5
  show FloatOps.sitofp (F := Ideal) .f32 ((IntOp.cmpi .eq (spread35 (shapeCast S400x1 x3 shapeCasts_S400x1_S400x1) (ix2 y k))
    (shapeCast S400x35 x2 shapeCasts_S400x35_S400x35 (ix2 y k))).setWidth 32) = _
  rw [sitofp_bit, shapeCast_self, shapeCast_self, spread35_apply]
  rfl

/-- Row y of the validity column: 1 when the number of same-label neighbours is more than 0 and less than 35. -/
theorem pay6_apply (x2 : Vec Ideal S400x35 .i32) (x3 : Vec Ideal S400x1 .i32) (y : Fin 400) (u : Fin 1) :
    k0_pay6 (F := Ideal) x2 x3 (ix2 y u) = rowCount x3 x2 y := by
  unfold k0_pay6
  show FloatOps.sitofp (F := Ideal) .f32 ((IntOp.andi
      (FloatOps.cmpf .ogt (sum35 (k0_pay5 x2 x3) (ix2 y u)) (Ideal.ofBits .f32 0x00000000#32))
      (FloatOps.cmpf .olt (sum35 (k0_pay5 x2 x3) (ix2 y u)) (Ideal.ofBits .f32 0x420C0000#32))).setWidth 32) = _
  rw [sitofp_bit, sum35_apply, Ideal.ofBits_zero_f32]
  simp only [pay5_apply]
  rfl

/-- The block's scores: minus the distance from each row to each of its neighbours. -/
def negDistBlock (x0 : Vec Ideal S400x64 .f32) (x1 : Vec Ideal S400x35x64 .bf16) : FVec Ideal S400x35 .f32 :=
  subf (broadcast S400x35 (Scalar.ofBits .f32 0x00000000#32))
    (sqrt (addf (sum64 (mulf
        (subf (spreadFeat x0) (extf .f32 (shapeCast S400x35x64 x1 shapeCasts_S400x35x64_S400x35x64) bitsLt_bf16_f32))
        (subf (spreadFeat x0) (extf .f32 (shapeCast S400x35x64 x1 shapeCasts_S400x35x64_S400x35x64) bitsLt_bf16_f32))))
      (broadcast S400x35 (Scalar.ofBits .f32 0x33D6BF95#32))))

theorem negDistBlock_apply (x0 : Vec Ideal S400x64 .f32) (x1 : Vec Ideal S400x35x64 .bf16) (y : Fin 400) (k : Fin 35) :
    negDistBlock x0 x1 (ix2 y k) = scores x0 x1 y k := by
  unfold negDistBlock
  show Ideal.ofBits .f32 0x00000000#32 - Ideal.sqrt (sum64 _ (ix2 y k) + Ideal.ofBits .f32 0x33D6BF95#32) = _
  rw [sum64_apply, Ideal.ofBits_zero_f32, zero_sub]
  unfold scores negDist
  refine congrArg (fun s => -(Ideal.sqrt (s + eps))) (Finset.sum_congr rfl fun c _ => ?_)
  show (spreadFeat x0 (ix3 y k c) - shapeCast S400x35x64 x1 shapeCasts_S400x35x64_S400x35x64 (ix3 y k c))
      * (spreadFeat x0 (ix3 y k c) - shapeCast S400x35x64 x1 shapeCasts_S400x35x64_S400x35x64 (ix3 y k c)) = _
  rw [spreadFeat_apply, shapeCast_self]
  rfl

theorem pay7_eq (x0 : Vec Ideal S400x64 .f32) (x1 : Vec Ideal S400x35x64 .bf16) :
    k0_pay7 (F := Ideal) x0 x1 = subf (negDistBlock x0 x1) (spread35 (max35 (negDistBlock x0 x1))) := rfl

/-- Entry (y, k) of the shifted scores: row y's score for neighbour k less the largest of row y's scores. -/
theorem pay7_apply (x0 : Vec Ideal S400x64 .f32) (x1 : Vec Ideal S400x35x64 .bf16) (y : Fin 400) (k : Fin 35) :
    k0_pay7 (F := Ideal) x0 x1 (ix2 y k) = scores x0 x1 y k - rowMax (scores x0 x1 y) := by
  rw [pay7_eq]
  show negDistBlock x0 x1 (ix2 y k) - spread35 (max35 (negDistBlock x0 x1)) (ix2 y k) = _
  rw [spread35_apply, max35_apply, negDistBlock_apply]
  simp only [negDistBlock_apply]

/-- The loss tile's stored value, in every entry: what the tile held plus the sum over the 400 rows of minus the log of
    the weighted share of same-label neighbours, times the row's validity. -/
theorem pay1_apply (v14 : FVec Ideal S400x35 .f32) (v23 : FVec Ideal S400x1 .f32) (v37 : FVec Ideal S400x35 .f32)
    (cst : Ideal .f32) (v57 : Vec Ideal S1x8x128 .f32) (j : S1x8x128.Idx) :
    k0_pay1 v14 v23 v37 cst v57 j = v57 j + ∑ y : Fin 400,
      (-(Ideal.log (Ideal.div (∑ k : Fin 35, Ideal.exp (Ideal.div (v37 (ix2 y k)) cst) * v14 (ix2 y k))
          (∑ k : Fin 35, Ideal.exp (Ideal.div (v37 (ix2 y k)) cst)) + eps))) * v23 (ix2 y (0 : Fin 1)) := by
  have e : k0_pay1 v14 v23 v37 cst v57 = addf (shapeCast S1x8x128 v57 shapeCasts_S1x8x128_S1x8x128)
      (total (mulf (subf (broadcast S400x1 (Scalar.ofBits .f32 0x00000000#32))
        (log (addf (divf (sum35 (mulf (exp (divf v37 (broadcast S400x35 cst))) v14))
            (sum35 (exp (divf v37 (broadcast S400x35 cst)))))
          (broadcast S400x1 (Scalar.ofBits .f32 0x33D6BF95#32))))) v23)) := rfl
  rw [e]
  show shapeCast S1x8x128 v57 shapeCasts_S1x8x128_S1x8x128 j + total _ j = _
  rw [shapeCast_self, total_apply]
  refine congrArg (v57 j + ·) (Finset.sum_congr rfl fun y _ => ?_)
  show (Ideal.ofBits .f32 0x00000000#32 - Ideal.log (Ideal.div (sum35 _ (ix2 y (0 : Fin 1))) (sum35 _ (ix2 y (0 : Fin 1)))
      + Ideal.ofBits .f32 0x33D6BF95#32)) * v23 (ix2 y (0 : Fin 1)) = _
  rw [sum35_apply, sum35_apply, Ideal.ofBits_zero_f32, zero_sub]
  rfl

/-- The count tile's stored value, in every entry: what the tile held plus the sum of the validity column. -/
theorem pay2_apply (v23 : FVec Ideal S400x1 .f32) (v63 : Vec Ideal S1x8x128 .f32) (j : S1x8x128.Idx) :
    k0_pay2 v23 v63 j = v63 j + ∑ y : Fin 400, v23 (ix2 y (0 : Fin 1)) := by
  have e : k0_pay2 v23 v63 = addf (shapeCast S1x8x128 v63 shapeCasts_S1x8x128_S1x8x128) (total v23) := rfl
  rw [e]
  show shapeCast S1x8x128 v63 shapeCasts_S1x8x128_S1x8x128 j + total v23 j = _
  rw [shapeCast_self, total_apply]

/-! ## A whole block -/

/-- The block's loss sum: over its 400 rows, each row's loss if the row is valid. -/
def blockLoss (x0 : Vec Ideal S400x64 .f32) (x1 : Vec Ideal S400x35x64 .bf16) (x2 : Vec Ideal S400x35 .i32)
    (x3 : Vec Ideal S400x1 .i32) : EReal := ∑ y : Fin 400, rowTerm x0 x1 x3 x2 y

/-- The block's number of valid rows. -/
def blockCount (x2 : Vec Ideal S400x35 .i32) (x3 : Vec Ideal S400x1 .i32) : EReal := ∑ y : Fin 400, rowCount x3 x2 y

theorem loss_store (x0 : Vec Ideal S400x64 .f32) (x1 : Vec Ideal S400x35x64 .bf16) (x2 : Vec Ideal S400x35 .i32)
    (x3 : Vec Ideal S400x1 .i32) (v57 : Vec Ideal S1x8x128 .f32) (j : S1x8x128.Idx) :
    k0_pay1 (k0_pay5 x2 x3) (k0_pay6 x2 x3) (k0_pay7 x0 x1) (Scalar.ofBits .f32 0x3DCCCCCD#32) v57 j
      = v57 j + blockLoss x0 x1 x2 x3 := by
  rw [pay1_apply]
  refine congrArg (v57 j + ·) (Finset.sum_congr rfl fun y _ => ?_)
  simp only [pay5_apply, pay6_apply, pay7_apply]
  rfl

theorem count_store (x2 : Vec Ideal S400x35 .i32) (x3 : Vec Ideal S400x1 .i32) (v63 : Vec Ideal S1x8x128 .f32)
    (j : S1x8x128.Idx) : k0_pay2 (k0_pay6 x2 x3) v63 j = v63 j + blockCount x2 x3 := by
  rw [pay2_apply]
  refine congrArg (v63 j + ·) (Finset.sum_congr rfl fun y _ => ?_)
  exact pay6_apply x2 x3 y 0

end Cert.KernelIdeal.Payload

end
-- ==== Proof.KAcc.lean ====
/-
  The two accumulator tiles after each grid point, in closed form.

  The grid has 250 points, 125 for each core's half of the rows. A tile is reset at the first point of a run of 125 and
  has the point's block sum added at every point, so after point t it holds, in every entry, zero plus the sum of the
  block sums of the points from the start of t's run up to t. At the last point of a run, the only one whose tile is
  written back, that is the sum over the whole run.
-/
import proofs.«138425_j33517924778311_2_alg».proof.Proof.Gen.KernelIdeal.Frame
import proofs.«138425_j33517924778311_2_alg».proof.Proof.Pieces
import proofs.«138425_j33517924778311_2_alg».proof.Proof.KPayload
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.Contrast Cert.KernelIdeal.Payload Cert.KernelIdeal.Pieces

variable (m : (ℓ : Loc nD τ sig) → Buf (Elt Ideal) ℓ)

/-- The loss sum of point `n`'s block. -/
def lossAt (c : Dev nD) (n : ℕ) (h : n < cfg0.N) : EReal :=
  blockLoss (iblk m c 0 ⟨n, h⟩) (iblk m c 1 ⟨n, h⟩) (iblk m c 2 ⟨n, h⟩) (iblk m c 3 ⟨n, h⟩)

/-- The number of valid rows of point `n`'s block. -/
def countAt (c : Dev nD) (n : ℕ) (h : n < cfg0.N) : EReal :=
  blockCount (iblk m c 2 ⟨n, h⟩) (iblk m c 3 ⟨n, h⟩)

/-- The same two, as functions of every natural number (zero past the grid, where they are never used). -/
def lossN (c : Dev nD) (n : ℕ) : EReal := if h : n < cfg0.N then lossAt m c n h else 0
def countN (c : Dev nD) (n : ℕ) : EReal := if h : n < cfg0.N then countAt m c n h else 0

/-- The sums over run `q`: points 125 q … 125 q + 124. -/
def runLoss (c : Dev nD) (q : ℕ) : EReal := ∑ s ∈ Finset.range 125, lossN m c (125 * q + s)
def runCount (c : Dev nD) (q : ℕ) : EReal := ∑ s ∈ Finset.range 125, countN m c (125 * q + s)

theorem zero_tile3 (j : S1x8x128.Idx) : k0_pay3 (F := Ideal) j = 0 := Ideal.ofBits_zero_f32
theorem zero_tile4 (j : S1x8x128.Idx) : k0_pay4 (F := Ideal) j = 0 := Ideal.ofBits_zero_f32

/-- The loss tile at a first point of a run: zero plus the point's block sum. -/
theorem loss_first (c : Dev nD) (n : ℕ) (h : n < cfg0.N) (h0 : n % 125 = 0) :
    (outsAt0 m c n h).1 = fun _ => 0 + lossAt m c n h := by
  rw [outsAt0_A m c ⟨n, h⟩ h0]
  dsimp only
  rw [out_A_4]
  funext j
  rw [loss_store, zero_tile3]
  rfl

/-- The loss tile at a later point of a run: what the point before left plus the point's block sum. -/
theorem loss_next (c : Dev nD) (n : ℕ) (h : n + 1 < cfg0.N) (h0 : ¬(n + 1) % 125 = 0) :
    (outsAt0 m c (n + 1) h).1 = fun j => (outsAt0 m c n (Nat.lt_of_succ_lt h)).1 j + lossAt m c (n + 1) h := by
  rw [outsAt0_B m c ⟨n + 1, h⟩ h0]
  dsimp only
  rw [out_B_4]
  funext j
  rw [loss_store]
  rfl

theorem count_first (c : Dev nD) (n : ℕ) (h : n < cfg0.N) (h0 : n % 125 = 0) :
    (outsAt0 m c n h).2 = fun _ => 0 + countAt m c n h := by
  rw [outsAt0_A m c ⟨n, h⟩ h0]
  dsimp only
  rw [out_A_5]
  funext j
  rw [count_store, zero_tile4]
  rfl

theorem count_next (c : Dev nD) (n : ℕ) (h : n + 1 < cfg0.N) (h0 : ¬(n + 1) % 125 = 0) :
    (outsAt0 m c (n + 1) h).2 = fun j => (outsAt0 m c n (Nat.lt_of_succ_lt h)).2 j + countAt m c (n + 1) h := by
  rw [outsAt0_B m c ⟨n + 1, h⟩ h0]
  dsimp only
  rw [out_B_5]
  funext j
  rw [count_store]
  rfl

/-- After the last point of run `t / 125` the loss tile holds, in every entry, zero plus the run's loss sum. -/
theorem loss_last (c : Dev nD) (t : Fin cfg0.N) (hl : t.val % 125 = 124) :
    (outsAt0 m c t.val t.isLt).1 = fun _ => 0 + runLoss m c (t.val / 125) := by
  have hN : cfg0.N = 250 := N_0
  have h' : 125 * (t.val / 125) + t.val % 125 < cfg0.N := by rw [Nat.div_add_mod]; exact t.isLt
  rw [Pipeline.eq_accAt_of_mod (fun n h => (outsAt0 m c n h).1) 125
    (fun n h => fun _ => 0 + lossAt m c n h) (fun n h acc => fun j => acc j + lossAt m c n h)
    (fun n h h0 => loss_first m c n h h0) (fun n h h0 => loss_next m c n h h0) (by decide) t.val t.isLt h']
  funext j
  have e := Pipeline.accAt_add_apply (fun n h => fun (_ : S1x8x128.Idx) => 0 + lossAt m c n h)
    (fun n h acc => fun j => acc j + lossAt m c n h) (fun _ => (0 : EReal)) (fun n _ => lossN m c n)
    (125 * (t.val / 125)) 124
    (fun h i => by show 0 + lossAt m c _ h = 0 + lossN m c _; unfold lossN; rw [dif_pos h])
    (fun n h acc i _ _ => by show acc i + lossAt m c n h = acc i + lossN m c n; unfold lossN; rw [dif_pos h])
    (t.val % 125) (by omega) h' j
  rw [e, hl]
  rfl

/-- And the count tile zero plus the run's number of valid rows. -/
theorem count_last (c : Dev nD) (t : Fin cfg0.N) (hl : t.val % 125 = 124) :
    (outsAt0 m c t.val t.isLt).2 = fun _ => 0 + runCount m c (t.val / 125) := by
  have hN : cfg0.N = 250 := N_0
  have h' : 125 * (t.val / 125) + t.val % 125 < cfg0.N := by rw [Nat.div_add_mod]; exact t.isLt
  rw [Pipeline.eq_accAt_of_mod (fun n h => (outsAt0 m c n h).2) 125
    (fun n h => fun _ => 0 + countAt m c n h) (fun n h acc => fun j => acc j + countAt m c n h)
    (fun n h h0 => count_first m c n h h0) (fun n h h0 => count_next m c n h h0) (by decide) t.val t.isLt h']
  funext j
  have e := Pipeline.accAt_add_apply (fun n h => fun (_ : S1x8x128.Idx) => 0 + countAt m c n h)
    (fun n h acc => fun j => acc j + countAt m c n h) (fun _ => (0 : EReal)) (fun n _ => countN m c n)
    (125 * (t.val / 125)) 124
    (fun h i => by show 0 + countAt m c _ h = 0 + countN m c _; unfold countN; rw [dif_pos h])
    (fun n h acc i _ _ => by show acc i + countAt m c n h = acc i + countN m c n; unfold countN; rw [dif_pos h])
    (t.val % 125) (by omega) h' j
  rw [e, hl]
  rfl

end Cert.KernelIdeal.Acc

end
-- ==== Proof.KFinal.lean ====
/-
  The two result arrays of the kernel region after the run.

  Each accumulator array has two tiles, one per core's run of 125 grid points, and tile q is written back once, after
  the last point of run q, when it holds zero plus the run's sum in every entry. The two write-backs cover the array,
  so the loss array ends, at every entry of tile q, at zero plus run q's loss sum, and the count array likewise.
-/
import proofs.«138425_j33517924778311_2_alg».proof.Proof.KAcc

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.Contrast Cert.KernelIdeal.Acc

variable (m : (ℓ : Loc nD τ sig) → Buf (Elt Ideal) ℓ)

/-- The tile an output window's block is at point `t`: the number of `t`'s run. -/
theorem idx4 : ∀ t : Fin cfg0.N, win0_4.index t (0 : Fin 3) = t.val / 125 ∧ win0_4.index t (1 : Fin 3) = 0
    ∧ win0_4.index t (2 : Fin 3) = 0 :=
  (by decide +kernel : ∀ t : Fin grid0.N, _)
theorem idx5 : ∀ t : Fin cfg0.N, win0_5.index t (0 : Fin 3) = t.val / 125 ∧ win0_5.index t (1 : Fin 3) = 0
    ∧ win0_5.index t (2 : Fin 3) = 0 :=
  (by decide +kernel : ∀ t : Fin grid0.N, _)

/-- The loss array after the run: at every entry of tile q, zero plus run q's loss sum. -/
def lossArr (c : Dev nD) : S2x8x128.Idx → EReal := fun i => 0 + runLoss m c (i 0).val
/-- The count array after the run. -/
def countArr (c : Dev nD) : S2x8x128.Idx → EReal := fun i => 0 + runCount m c (i 0).val

/-- What a write-back of the loss tile writes is the block of `lossArr` it goes to. -/
theorem flushed4_eq (c : Dev nD) (t : Fin cfg0.N) (hf : (cfg0.win 4).flush t = true) :
    (dats m 0 c).flushed 4 t = ((cfg0.win 4).blk t).view.read (Elt Ideal) (lossArr m c) := by
  have hl := (flush0_4 t).mp hf
  show (cfg0.win 4).cut (grid0.coords t) ((dats m 0 c).after 4 t) = _
  rw [after0_4, loss_last m c t hl]
  funext y
  rw [View.read_apply]
  show (0 + runLoss m c (t.val / 125) : EReal) = 0 + runLoss m c ((((cfg0.win 4).blk t).view.emb y) 0).val
  have e : ((((cfg0.win 4).blk t).view.emb y) 0).val = t.val / 125 := by
    show win0_4.index t (0 : Fin 3) * 1 + 1 * (y 0).val = _
    have hy : (y 0).val < 1 := (y 0).isLt
    rw [(idx4 t).1]; omega
  rw [e]

theorem flushed5_eq (c : Dev nD) (t : Fin cfg0.N) (hf : (cfg0.win 5).flush t = true) :
    (dats m 0 c).flushed 5 t = ((cfg0.win 5).blk t).view.read (Elt Ideal) (countArr m c) := by
  have hl := (flush0_5 t).mp hf
  show (cfg0.win 5).cut (grid0.coords t) ((dats m 0 c).after 5 t) = _
  rw [after0_5, count_last m c t hl]
  funext y
  rw [View.read_apply]
  show (0 + runCount m c (t.val / 125) : EReal) = 0 + runCount m c ((((cfg0.win 5).blk t).view.emb y) 0).val
  have e : ((((cfg0.win 5).blk t).view.emb y) 0).val = t.val / 125 := by
    show win0_5.index t (0 : Fin 3) * 1 + 1 * (y 0).val = _
    have hy : (y 0).val < 1 := (y 0).isLt
    rw [(idx5 t).1]; omega
  rw [e]

/-- An entry of the array is in point `t`'s block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v16_0).slice (win0_4.rect t)).set ↔ _
  rw [View.set_slice_whole, Rect.mem_set_unit]
  exact Iff.rfl
theorem mem_blk5 (t : Fin cfg0.N) (i : S2x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v16_1).slice (win0_5.rect t)).set ↔ _
  rw [View.set_slice_whole, Rect.mem_set_unit]
  exact Iff.rfl

/-- The last point of run q. -/
def lastOf (q : Fin 2) : Fin cfg0.N := ⟨125 * q.val + 124, by have hN : cfg0.N = 250 := N_0; have := q.isLt; omega⟩

/-- Every entry of tile q is written back at the last point of run q. -/
theorem cover4 (i : S2x8x128.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  refine ⟨lastOf ⟨(i 0).val, h0⟩, (flush0_4 _).mpr (by show (125 * (i 0).val + 124) % 125 = 124; omega), ?_⟩
  rw [mem_blk4]
  obtain ⟨e0, e1, e2⟩ := idx4 (lastOf ⟨(i 0).val, h0⟩)
  have e0' : win0_4.index (lastOf ⟨(i 0).val, h0⟩) (0 : Fin 3) = (i 0).val := by
    rw [e0]; show (125 * (i 0).val + 124) / 125 = (i 0).val; omega
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 8 ≤ (i 1).val ∧ (i 1).val < win0_4.index _ (1 : Fin 3) * 8 + 8; rw [e1]; omega
  | ⟨2, _⟩ => show win0_4.index _ (2 : Fin 3) * 128 ≤ (i 2).val ∧ (i 2).val < win0_4.index _ (2 : Fin 3) * 128 + 128; rw [e2]; omega

theorem cover5 (i : S2x8x128.Idx) : ∃ t : Fin cfg0.N, (cfg0.win 5).flush t = true ∧ i ∈ ((cfg0.win 5).blk t).view.set := by
  have h0 : (i 0).val < 2 := (i 0).isLt
  have h1 : (i 1).val < 8 := (i 1).isLt
  have h2 : (i 2).val < 128 := (i 2).isLt
  refine ⟨lastOf ⟨(i 0).val, h0⟩, (flush0_5 _).mpr (by show (125 * (i 0).val + 124) % 125 = 124; omega), ?_⟩
  rw [mem_blk5]
  obtain ⟨e0, e1, e2⟩ := idx5 (lastOf ⟨(i 0).val, h0⟩)
  have e0' : win0_5.index (lastOf ⟨(i 0).val, h0⟩) (0 : Fin 3) = (i 0).val := by
    rw [e0]; show (125 * (i 0).val + 124) / 125 = (i 0).val; omega
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 8 ≤ (i 1).val ∧ (i 1).val < win0_5.index _ (1 : Fin 3) * 8 + 8; rw [e1]; omega
  | ⟨2, _⟩ => show win0_5.index _ (2 : Fin 3) * 128 ≤ (i 2).val ∧ (i 2).val < win0_5.index _ (2 : Fin 3) * 128 + 128; rw [e2]; omega

/-- The loss array after the run. -/
theorem final4 (c : Dev nD) : (dats m 0 c).arrAt 4 cfg0.N = lossArr m c :=
  (dats m 0 c).arrAt_eq_of_cover 4 (lossArr m c) (flushed4_eq m c) cover4

/-- The count array after the run. -/
theorem final5 (c : Dev nD) : (dats m 0 c).arrAt 5 cfg0.N = countArr m c :=
  (dats m 0 c).arrAt_eq_of_cover 5 (countArr m c) (flushed5_eq m c) cover5

end Cert.KernelIdeal.Final

end
-- ==== Proof.KTail.lean ====
/-
  The kernel program's result, read through the host operations that follow the kernel region.

  After the region the program takes entry (0, 0, 0) and entry (1, 0, 0) of each of the two [2, 8, 128] result arrays,
  one entry per tile, reshapes each to a scalar, adds the two entries of the loss array and the two of the count
  array, takes the larger of the count sum and 1, divides the loss sum by it and multiplies by 1. With the arrays
  after the region known entry by entry, the result is the mean's outcome of the two tiles' loss sums and count sums.
-/
import proofs.«138425_j33517924778311_2_alg».proof.Proof.KFinal
import proofs.«138425_j33517924778311_2_alg».proof.Proof.Spec
import Idealize.ShloMosaic.Lib.StableHlo.Run
import Idealize.ShloMosaic.Lib.Pipeline.Value
import Idealize.ShloMosaic.Lib.Pipeline.FrameSuffix
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Tail

open Cert.KernelIdeal Cert.KernelIdeal.Gen Cert.KernelIdeal.Final Cert.Contrast

/-! ## One entry of a result array, as the tail reads it -/

/-- Any two indices of a one-entry array are equal. -/
theorem idx111_eq (j k : S1x1x1.Idx) : j = k :=
  funext fun a => Fin.ext (by
    match a with
    | ⟨0, _⟩ => have h1 : (j 0).val < 1 := (j 0).isLt; have h2 : (k 0).val < 1 := (k 0).isLt; show (j 0).val = (k 0).val; omega
    | ⟨1, _⟩ => have h1 : (j 1).val < 1 := (j 1).isLt; have h2 : (k 1).val < 1 := (k 1).isLt; show (j 1).val = (k 1).val; omega
    | ⟨2, _⟩ => have h1 : (j 2).val < 1 := (j 2).isLt; have h2 : (k 2).val < 1 := (k 2).isLt; show (j 2).val = (k 2).val; omega)

/-- The one-entry slice at the first tile is the array's entry (0, 0, 0). -/
theorem slice0_apply (X : S2x8x128.Idx → EReal) (h : S2x8x128.Slices ![0, 0, 0] S1x1x1) (j : S1x1x1.Idx) :
    extractStridedSlice S1x1x1 ![0, 0, 0] X h j = X (ix3 (0 : Fin 2) (0 : Fin 8) (0 : Fin 128)) :=
  extractStridedSlice_apply _ X h j _ fun a => by
    match a with
    | ⟨0, _⟩ => have h1 : (j 0).val < 1 := (j 0).isLt; show 0 = 0 + (j 0).val; omega
    | ⟨1, _⟩ => have h1 : (j 1).val < 1 := (j 1).isLt; show 0 = 0 + (j 1).val; omega
    | ⟨2, _⟩ => have h1 : (j 2).val < 1 := (j 2).isLt; show 0 = 0 + (j 2).val; omega

/-- The one-entry slice at the second tile is the array's entry (1, 0, 0). -/
theorem slice1_apply (X : S2x8x128.Idx → EReal) (h : S2x8x128.Slices ![1, 0, 0] S1x1x1) (j : S1x1x1.Idx) :
    extractStridedSlice S1x1x1 ![1, 0, 0] X h j = X (ix3 (1 : Fin 2) (0 : Fin 8) (0 : Fin 128)) :=
  extractStridedSlice_apply _ X h j _ fun a => by
    match a with
    | ⟨0, _⟩ => have h1 : (j 0).val < 1 := (j 0).isLt; show 1 = 1 + (j 0).val; omega
    | ⟨1, _⟩ => have h1 : (j 1).val < 1 := (j 1).isLt; show 0 = 0 + (j 1).val; omega
    | ⟨2, _⟩ => have h1 : (j 2).val < 1 := (j 2).isLt; show 0 = 0 + (j 2).val; omega

/-- A one-entry array reshaped to a scalar is its entry. -/
theorem scalar_apply (v : S1x1x1.Idx → EReal) (h : S1x1x1.ShapeCasts S_) (i : S_.Idx) (k : S1x1x1.Idx) :
    shapeCast S_ v h i = v k := by
  unfold shapeCast
  exact congrArg v (idx111_eq _ _)

/-- Entry (0, 0, 0) of an array, sliced out and reshaped to a scalar. -/
theorem entry0_apply (X : S2x8x128.Idx → EReal) (h : S2x8x128.Slices ![0, 0, 0] S1x1x1) (h' : S1x1x1.ShapeCasts S_) (i : S_.Idx) :
    shapeCast S_ (extractStridedSlice S1x1x1 ![0, 0, 0] X h) h' i = X (ix3 (0 : Fin 2) (0 : Fin 8) (0 : Fin 128)) :=
  (scalar_apply _ h' i (ix3 (0 : Fin 1) (0 : Fin 1) (0 : Fin 1))).trans (slice0_apply X h _)

/-- Entry (1, 0, 0) of an array, sliced out and reshaped to a scalar. -/
theorem entry1_apply (X : S2x8x128.Idx → EReal) (h : S2x8x128.Slices ![1, 0, 0] S1x1x1) (h' : S1x1x1.ShapeCasts S_) (i : S_.Idx) :
    shapeCast S_ (extractStridedSlice S1x1x1 ![1, 0, 0] X h) h' i = X (ix3 (1 : Fin 2) (0 : Fin 8) (0 : Fin 128)) :=
  (scalar_apply _ h' i (ix3 (0 : Fin 1) (0 : Fin 1) (0 : Fin 1))).trans (slice1_apply X h _)

variable (m : (ℓ : Loc nD τ sig) → Buf (Elt Ideal) ℓ) (ρ : Dev nD → PrngReg)

/-! ## The host operations after the region -/

/-- The tail adds the two tiles' first entries of each result array, takes the larger of the count and 1, divides
    and multiplies by 1: the mean's outcome of the two sums. Stated for any contents of the two arrays after the run. -/
theorem tail_of (c : Dev nD) (L C : S2x8x128.Idx → EReal) (h4 : (dats m 0 c).arrAt 4 cfg0.N = L) (h5 : (dats m 0 c).arrAt 5 cfg0.N = C) :
    Pipeline.afterTail₀ cfgs (dats m) 0 (V0 m) [hostOps1] c main_v29
      = fun _ => outcome (L (ix3 (0 : Fin 2) (0 : Fin 8) (0 : Fin 128)) + L (ix3 (1 : Fin 2) (0 : Fin 8) (0 : Fin 128)))
                         (C (ix3 (0 : Fin 2) (0 : Fin 8) (0 : Fin 128)) + C (ix3 (1 : Fin 2) (0 : Fin 8) (0 : Fin 128))) := by
  have e4 : Pipeline.withArrays (cfgs 0).spec c (V0 m c) (fun w => (dats m 0 c).arrAt w (cfgs 0).N) (Proc.devRef .tc main_v16_0) = L :=
    (Pipeline.withArrays_arr spec0 launch0.win.arr_inj c _ _ 4).trans h4
  have e5 : Pipeline.withArrays (cfgs 0).spec c (V0 m c) (fun w => (dats m 0 c).arrAt w (cfgs 0).N) (Proc.devRef .tc main_v16_1) = C :=
    (Pipeline.withArrays_arr spec0 launch0.win.arr_inj c _ _ 5).trans h5
  unfold Pipeline.afterTail₀
  show StableHlo.after hostOps1 _ (Proc.devRef .tc main_v29) = _
  after_results
  rw [e4, e5]
  funext i
  show Ideal.div (shapeCast S_ (extractStridedSlice S1x1x1 ![0, 0, 0] L _) _ i + shapeCast S_ (extractStridedSlice S1x1x1 ![1, 0, 0] L _) _ i)
      (max (shapeCast S_ (extractStridedSlice S1x1x1 ![0, 0, 0] C _) _ i + shapeCast S_ (extractStridedSlice S1x1x1 ![1, 0, 0] C _) _ i) one)
      * one = _
  rw [entry0_apply L, entry1_apply L, entry0_apply C, entry1_apply C]
  rfl

/-- The kernel program's result on core `c`: the mean's outcome of the two tiles' loss entries and count entries. -/
def result (c : Dev nD) : EReal :=
  outcome (lossArr m c (ix3 (0 : Fin 2) (0 : Fin 8) (0 : Fin 128)) + lossArr m c (ix3 (1 : Fin 2) (0 : Fin 8) (0 : Fin 128)))
          (countArr m c (ix3 (0 : Fin 2) (0 : Fin 8) (0 : Fin 128)) + countArr m c (ix3 (1 : Fin 2) (0 : Fin 8) (0 : Fin 128)))

theorem result_def (c : Dev nD) : result m c
    = outcome (lossArr m c (ix3 (0 : Fin 2) (0 : Fin 8) (0 : Fin 128)) + lossArr m c (ix3 (1 : Fin 2) (0 : Fin 8) (0 : Fin 128)))
              (countArr m c (ix3 (0 : Fin 2) (0 : Fin 8) (0 : Fin 128)) + countArr m c (ix3 (1 : Fin 2) (0 : Fin 8) (0 : Fin 128))) := rfl

/-- What the operations after the region leave in the result buffer. -/
theorem tail_eq (c : Dev nD) :
    Pipeline.afterTail₀ cfgs (dats m) 0 (V0 m) [hostOps1] c main_v29
      = fun _ => outcome (lossArr m c (ix3 (0 : Fin 2) (0 : Fin 8) (0 : Fin 128)) + lossArr m c (ix3 (1 : Fin 2) (0 : Fin 8) (0 : Fin 128)))
                         (countArr m c (ix3 (0 : Fin 2) (0 : Fin 8) (0 : Fin 128)) + countArr m c (ix3 (1 : Fin 2) (0 : Fin 8) (0 : Fin 128))) :=
  tail_of m c (lossArr m c) (countArr m c) (final4 m c) (final5 m c)

/-- The kernel program's run: it ends with the result buffer at the outcome and the three arguments as launched. -/
theorem run : θ_run defs (onTc (τ := τ) (main (F := Ideal))) ⟨m, fun _ => 0, ρ⟩ fun r => ∀ c : Dev nD,
      r.2.mem ((c.tc : Thread nD τ).loc main_v29)
        = (fun _ => outcome (lossArr m c (ix3 (0 : Fin 2) (0 : Fin 8) (0 : Fin 128)) + lossArr m c (ix3 (1 : Fin 2) (0 : Fin 8) (0 : Fin 128)))
                            (countArr m c (ix3 (0 : Fin 2) (0 : Fin 8) (0 : Fin 128)) + countArr m c (ix3 (1 : Fin 2) (0 : Fin 8) (0 : Fin 128))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Tail

end
-- ==== Proof.KBlocks.lean ====
/-
  The kernel's four input windows, block by block, and what their arrays hold when the region is entered.

  The grid is [2, 125] in row-major order, so point t has coordinates (t / 125, t % 125), and each input window's index map
  sends it to block row (t / 125) * 125 + t % 125 = t, every other block coordinate 0. A block's element sits in the array
  at block index × block size + its coordinate inside the block; the blocks are 400 rows tall and as wide as their arrays,
  so window w's block at point t is rows 400 t … 400 t + 399 of its array, every other coordinate unchanged.
-/
import proofs.«138425_j33517924778311_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Row `y` of block `t` is a row of the array: `t < 250`, `y < 400`. -/
theorem row_lt (t : Fin cfg0.N) (y : Fin 400) : t.val * 400 + y.val < 100000 := by
  have := t.isLt; have hN : cfg0.N = 250 := N_0; have := y.isLt; omega

/-- The index maps, decided over the grid: block row `t`, every other block coordinate 0. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- The point's own features: row `y` of block `t` is row `400 t + y` of the feature array. -/
theorem iblk0_apply (c : Dev nD) (t : Fin cfg0.N) (y : Fin 400) (f : Fin 64) :
    iblk m c 0 t (ix2 y f) = V m c main_arg0 (ix2 ⟨t.val * 400 + y.val, row_lt t y⟩ f) := by
  unfold iblk
  rw [View.read_apply]
  show V m c main_arg0 (((cfg0.win 0).blk t).view.emb _) = V m c main_arg0 _
  refine congrArg (V m c main_arg0) (funext fun a => Fin.ext ?_)
  match a with
  | ⟨0, _⟩ => show win0_0.index t 0 * 400 + 1 * y.val = t.val * 400 + y.val; rw [(idx0 t).1]; omega
  | ⟨1, _⟩ => show win0_0.index t 1 * 64 + 1 * f.val = f.val; rw [(idx0 t).2]; omega

/-- The neighbours' features: row `y` of block `t` is row `400 t + y` of the gathered array. -/
theorem iblk1_apply (c : Dev nD) (t : Fin cfg0.N) (y : Fin 400) (k : Fin 35) (f : Fin 64) :
    iblk m c 1 t (ix3 y k f) = V m c main_v7 (ix3 ⟨t.val * 400 + y.val, row_lt t y⟩ k f) := by
  unfold iblk
  rw [View.read_apply]
  show V m c main_v7 (((cfg0.win 1).blk t).view.emb _) = V m c main_v7 _
  refine congrArg (V m c main_v7) (funext fun a => Fin.ext ?_)
  match a with
  | ⟨0, _⟩ => show win0_1.index t 0 * 400 + 1 * y.val = t.val * 400 + y.val; rw [(idx1 t).1]; omega
  | ⟨1, _⟩ => show win0_1.index t 1 * 35 + 1 * k.val = k.val; rw [(idx1 t).2.1]; omega
  | ⟨2, _⟩ => show win0_1.index t 2 * 64 + 1 * f.val = f.val; rw [(idx1 t).2.2]; omega

/-- The neighbours' labels: row `y` of block `t` is row `400 t + y` of the gathered labels. -/
theorem iblk2_apply (c : Dev nD) (t : Fin cfg0.N) (y : Fin 400) (k : Fin 35) :
    iblk m c 2 t (ix2 y k) = V m c main_v14 (ix2 ⟨t.val * 400 + y.val, row_lt t y⟩ k) := by
  unfold iblk
  rw [View.read_apply]
  show V m c main_v14 (((cfg0.win 2).blk t).view.emb _) = V m c main_v14 _
  refine congrArg (V m c main_v14) (funext fun a => Fin.ext ?_)
  match a with
  | ⟨0, _⟩ => show win0_2.index t 0 * 400 + 1 * y.val = t.val * 400 + y.val; rw [(idx2 t).1]; omega
  | ⟨1, _⟩ => show win0_2.index t 1 * 35 + 1 * k.val = k.val; rw [(idx2 t).2]; omega

/-- The points' own labels as a column: row `y` of block `t` is row `400 t + y` of the column. -/
theorem iblk3_apply (c : Dev nD) (t : Fin cfg0.N) (y : Fin 400) (u : Fin 1) :
    iblk m c 3 t (ix2 y u) = V m c main_v15 (ix2 ⟨t.val * 400 + y.val, row_lt t y⟩ u) := by
  unfold iblk
  rw [View.read_apply]
  show V m c main_v15 (((cfg0.win 3).blk t).view.emb _) = V m c main_v15 _
  refine congrArg (V m c main_v15) (funext fun a => Fin.ext ?_)
  match a with
  | ⟨0, _⟩ => show win0_3.index t 0 * 400 + 1 * y.val = t.val * 400 + y.val; rw [(idx3 t).1]; omega
  | ⟨1, _⟩ => show win0_3.index t 1 * 1 + 1 * u.val = u.val; rw [(idx3 t).2]; omega

/-! ## What the region finds in the arrays the host wrote before it

The host operations before the region compute, from the arguments: the neighbour indices with the negative ones wrapped by
100000 and a trailing unit axis; the rows of the features gathered at those indices (from the features narrowed to bf16,
which at the ideal values is the features themselves); the labels gathered at those indices; and the labels as a column. -/

/-- The neighbour indices as the gathers take them: negative ones wrapped by 100000, with a trailing unit axis. -/
def gidx (x2 : (⟨S100000x35, .i32⟩ : BufTy).Contents (Elt Ideal)) : (⟨S100000x35x1, .i32⟩ : BufTy).Contents (Elt Ideal) :=
  broadcastInDim S100000x35x1 ![0, 1] bcast_S100000x35_S100000x35x1_0_1
    (select (cmpi .slt x2 (broadcastInDim S100000x35 ![] bcast_S_S100000x35 (constantI S_ 32 0#32)))
            (addi x2 (broadcastInDim S100000x35 ![] bcast_S_S100000x35 (constantI S_ 32 100000#32))) x2)

/-- The labels' column is the labels with a unit axis added. -/
theorem V_v15 (c : Dev nD) : (V m c main_v15 : S100000x1.Idx → BitVec 32)
    = broadcastInDim S100000x1 ![0] bcast_S100000_S100000x1_0 (m ((c.tc : Thread nD τ).loc main_arg1)) := by
  show StableHlo.after hostOps0 (fun b => m (c, b)) (Proc.devRef .tc main_v15) = _
  after_results

/-- The neighbours' labels are the labels gathered at the wrapped neighbour indices. -/
theorem V_v14 (c : Dev nD) : (V m c main_v14 : S100000x35.Idx → BitVec 32)
    = Host.gather gather_S100000_S100000x35x1_S100000x35_n_0_n_n_0_2_1 (m ((c.tc : Thread nD τ).loc main_arg1)) (gidx (m ((c.tc : Thread nD τ).loc main_arg2))) := by
  show StableHlo.after hostOps0 (fun b => m (c, b)) (Proc.devRef .tc main_v14) = _
  after_results
  rfl

/-- The neighbours' features are the features' rows gathered at the wrapped neighbour indices: narrowing the features
    to bf16 first changes nothing at the ideal values. -/
theorem V_v7 (c : Dev nD) : (V m c main_v7 : S100000x35x64.Idx → EReal)
    = Host.gather gather_S100000x64_S100000x35x1_S100000x35x64_2_0_n_n_0_2_164 (m ((c.tc : Thread nD τ).loc main_arg0)) (gidx (m ((c.tc : Thread nD τ).loc main_arg2))) := by
  show StableHlo.after hostOps0 (fun b => m (c, b)) (Proc.devRef .tc main_v7) = _
  after_results
  rfl

end Cert.KernelIdeal.Blocks

end
-- ==== Proof.KValue.lean ====
/-
  The kernel's two run sums as sums over the 100000 points.

  Point t of the grid works on rows 400 t … 400 t + 399 of the four arrays the region reads, so its block sum is the sum
  of the rows' terms over those rows; run q is points 125 q … 125 q + 124; and every row r < 100000 is
  (125 q + i) * 400 + y for exactly one run q < 2, point i < 125 and row y < 400. So the two runs' sums added are the sum
  over all the rows, for the losses and for the counts alike.
-/
import proofs.«138425_j33517924778311_2_alg».proof.Proof.KFinal
import proofs.«138425_j33517924778311_2_alg».proof.Proof.KBlocks
import proofs.«138425_j33517924778311_2_alg».proof.Proof.Count

noncomputable section

open Idealize.ShloMosaic Idealize.ShloMosaic.TcCoe Idealize.SL.Sem Idealize.ShloMosaic.ValueIdx
open scoped BigOperators

namespace Cert.KernelIdeal.Value

open Cert.KernelIdeal Cert.KernelIdeal.Gen Cert.Contrast Cert.KernelIdeal.Acc Cert.KernelIdeal.Final
open Cert.KernelIdeal.Payload Cert.KernelIdeal.Blocks

variable (m : (ℓ : Loc nD τ sig) → Buf (Elt Ideal) ℓ)

/-- The four arrays as the region finds them: the points' features, their neighbours' features, the column of their
    labels, their neighbours' labels. -/
abbrev feats (c : Dev nD) : S100000x64.Idx → EReal := V m c main_arg0
abbrev nfeats (c : Dev nD) : S100000x35x64.Idx → EReal := V m c main_v7
abbrev labelCol (c : Dev nD) : S100000x1.Idx → BitVec 32 := V m c main_v15
abbrev nlabels (c : Dev nD) : S100000x35.Idx → BitVec 32 := V m c main_v14

/-- Row y of point n's block is row 400 n + y of the arrays: the same scores, -/
theorem scores_block (c : Dev nD) (t : Fin cfg0.N) (y : Fin 400) :
    scores (iblk m c 0 t) (iblk m c 1 t) y = scores (feats m c) (nfeats m c) ⟨t.val * 400 + y.val, Blocks.row_lt t y⟩ := by
  funext k
  unfold scores
  refine congrArg₂ negDist (funext fun f => ?_) (funext fun f => ?_)
  · exact iblk0_apply m c t y f
  · exact iblk1_apply m c t y k f

/-- and the same same-label indicators. -/
theorem same_block (c : Dev nD) (t : Fin cfg0.N) (y : Fin 400) :
    same (iblk m c 3 t) (iblk m c 2 t) y = same (labelCol m c) (nlabels m c) ⟨t.val * 400 + y.val, Blocks.row_lt t y⟩ := by
  funext k
  unfold same
  rw [iblk3_apply m c t y 0, iblk2_apply m c t y k]

theorem lossAt_eq (c : Dev nD) (n : ℕ) (h : n < cfg0.N) :
    lossAt m c n h = ∑ y : Fin 400, rowTerm (feats m c) (nfeats m c) (labelCol m c) (nlabels m c)
      ⟨n * 400 + y.val, Blocks.row_lt ⟨n, h⟩ y⟩ := by
  unfold lossAt blockLoss
  refine Finset.sum_congr rfl fun y _ => ?_
  unfold rowTerm rowCount
  rw [scores_block m c ⟨n, h⟩ y, same_block m c ⟨n, h⟩ y]

theorem countAt_eq (c : Dev nD) (n : ℕ) (h : n < cfg0.N) :
    countAt m c n h = ∑ y : Fin 400, rowCount (labelCol m c) (nlabels m c) ⟨n * 400 + y.val, Blocks.row_lt ⟨n, h⟩ y⟩ := by
  unfold countAt blockCount
  refine Finset.sum_congr rfl fun y _ => ?_
  unfold rowCount
  rw [same_block m c ⟨n, h⟩ y]

/-- Run q's loss sum, over its 125 points' 400 rows each. -/
theorem runLoss_eq (c : Dev nD) (q : Fin 2) :
    runLoss m c q.val = ∑ i : Fin 125, ∑ y : Fin 400, rowTerm (feats m c) (nfeats m c) (labelCol m c) (nlabels m c)
      ⟨(q.val * 125 + i.val) * 400 + y.val, Contrast.row_lt q i y⟩ := by
  unfold runLoss
  rw [Finset.sum_range]
  refine Finset.sum_congr rfl fun i _ => ?_
  have hlt : 125 * q.val + i.val < cfg0.N := by
    have hN : cfg0.N = 250 := N_0
    have := q.isLt; have := i.isLt; omega
  unfold lossN
  rw [dif_pos hlt, lossAt_eq]
  refine Finset.sum_congr rfl fun y _ => ?_
  exact congrArg (rowTerm (feats m c) (nfeats m c) (labelCol m c) (nlabels m c)) (Fin.ext (by
    show (125 * q.val + i.val) * 400 + y.val = (q.val * 125 + i.val) * 400 + y.val; omega))

theorem runCount_eq (c : Dev nD) (q : Fin 2) :
    runCount m c q.val = ∑ i : Fin 125, ∑ y : Fin 400, rowCount (labelCol m c) (nlabels m c)
      ⟨(q.val * 125 + i.val) * 400 + y.val, Contrast.row_lt q i y⟩ := by
  unfold runCount
  rw [Finset.sum_range]
  refine Finset.sum_congr rfl fun i _ => ?_
  have hlt : 125 * q.val + i.val < cfg0.N := by
    have hN : cfg0.N = 250 := N_0
    have := q.isLt; have := i.isLt; omega
  unfold countN
  rw [dif_pos hlt, countAt_eq]
  refine Finset.sum_congr rfl fun y _ => ?_
  exact congrArg (rowCount (labelCol m c) (nlabels m c)) (Fin.ext (by
    show (125 * q.val + i.val) * 400 + y.val = (q.val * 125 + i.val) * 400 + y.val; omega))

/-- The two tiles' loss sums added are the sum of the rows' terms over all 100000 rows. -/
theorem total_loss (c : Dev nD) :
    lossArr m c (ix3 (0 : Fin 2) (0 : Fin 8) (0 : Fin 128)) + lossArr m c (ix3 (1 : Fin 2) (0 : Fin 8) (0 : Fin 128))
      = ∑ r : Fin 100000, rowTerm (feats m c) (nfeats m c) (labelCol m c) (nlabels m c) r := by
  show (0 + runLoss m c (0 : Fin 2).val) + (0 + runLoss m c (1 : Fin 2).val) = _
  rw [zero_add, zero_add, Contrast.sum_rows, Fin.sum_univ_two, runLoss_eq m c 0, runLoss_eq m c 1]

theorem total_count (c : Dev nD) :
    countArr m c (ix3 (0 : Fin 2) (0 : Fin 8) (0 : Fin 128)) + countArr m c (ix3 (1 : Fin 2) (0 : Fin 8) (0 : Fin 128))
      = ∑ r : Fin 100000, rowCount (labelCol m c) (nlabels m c) r := by
  show (0 + runCount m c (0 : Fin 2).val) + (0 + runCount m c (1 : Fin 2).val) = _
  rw [zero_add, zero_add, Contrast.sum_rows, Fin.sum_univ_two, runCount_eq m c 0, runCount_eq m c 1]

end Cert.KernelIdeal.Value

end
-- ==== Proof.lean ====
/-
  The kernel and its reference compute one number on the extended reals: the mean, over the valid points, of the
  soft-nearest-neighbour contrast loss.

  Both programs gather each point's 35 neighbours' features and labels by the same host operations on the same
  arguments (the kernel gathers from a bf16 copy of the features, which at the ideal values is the features themselves).
  The reference then works on whole arrays: per point the scores, their maximum, the weights, the loss, and the validity
  bit from an integer count of same-label neighbours; it sums loss times validity and validity over all 100000 points,
  divides the first sum by the larger of the second and 1, and multiplies by 1.
  The kernel works on blocks of 400 points over a grid of 2 runs of 125 points: each point adds its block's two sums
  into two accumulator tiles, one pair of tiles per run, reset at the run's first point and written back after its
  last; the host then adds the two runs' tiles' first entries and finishes as the reference does. Its validity bit comes
  from the count taken as a sum of the 0/1 indicators on the extended reals, which is the same number as the integer
  count, a number between 0 and 35.
  So each side is the specification's outcome of the sum of the rows' terms and the sum of the rows' validities: the
  reference's sums run over the rows in order, the kernel's over (run, point, row in block), which lists every row
  once, and sums on the extended reals may be regrouped freely. No finiteness of the inputs is used.

  The three frames: the two kernel programs' are the generated frame certificates; the reference's is its generated
  run with the result dropped. The idealization rewrote nothing, so what it preserves is trivially true.
-/
import proofs.«138425_j33517924778311_2_alg».proof.Defs
import proofs.«138425_j33517924778311_2_alg».proof.Proof.Gen.Kernel
import proofs.«138425_j33517924778311_2_alg».proof.Proof.Gen.Kernel.Skeleton
import proofs.«138425_j33517924778311_2_alg».proof.Proof.Gen.Kernel.Launch
import proofs.«138425_j33517924778311_2_alg».proof.Proof.Gen.Kernel.Points
import proofs.«138425_j33517924778311_2_alg».proof.Proof.Gen.Kernel.Frame
import proofs.«138425_j33517924778311_2_alg».proof.Proof.Gen.KernelIdeal
import proofs.«138425_j33517924778311_2_alg».proof.Proof.Gen.KernelIdeal.Skeleton
import proofs.«138425_j33517924778311_2_alg».proof.Proof.Gen.KernelIdeal.Launch
import proofs.«138425_j33517924778311_2_alg».proof.Proof.Gen.KernelIdeal.Points
import proofs.«138425_j33517924778311_2_alg».proof.Proof.Gen.KernelIdeal.Frame
import proofs.«138425_j33517924778311_2_alg».proof.Proof.Gen.ReferenceIdeal
import proofs.«138425_j33517924778311_2_alg».proof.Proof.Gen.Pre_finite_inputs
import proofs.«138425_j33517924778311_2_alg».proof.Proof.RefSide
import proofs.«138425_j33517924778311_2_alg».proof.Proof.Count
import proofs.«138425_j33517924778311_2_alg».proof.Proof.KTail
import proofs.«138425_j33517924778311_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The arrays the kernel's region reads are the reference's own intermediate arrays of the same arguments: the
    gathered neighbour features and labels and the label column. -/
theorem arrays_eq (m : (ℓ : Loc Cert.KernelIdeal.nD Cert.KernelIdeal.τ Cert.KernelIdeal.sig) → Buf (Elt Ideal) ℓ)
    (c : Dev Cert.KernelIdeal.nD) :
    Cert.KernelIdeal.Value.nfeats m c = Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
    ∧ Cert.KernelIdeal.Value.nlabels m c = Cert.ReferenceIdeal.Read.val_main_v6 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
    ∧ Cert.KernelIdeal.Value.labelCol m c = Cert.ReferenceIdeal.Read.val_main_v14 (F := Ideal)
        (m ((c.tc : Thread Cert.KernelIdeal.nD Cert.KernelIdeal.τ).loc Cert.KernelIdeal.main_arg1))
    ∧ Cert.KernelIdeal.Value.feats m c = m ((c.tc : Thread Cert.KernelIdeal.nD Cert.KernelIdeal.τ).loc Cert.KernelIdeal.main_arg0) :=
  ⟨(Cert.KernelIdeal.Blocks.V_v7 m c).trans rfl, (Cert.KernelIdeal.Blocks.V_v14 m c).trans rfl,
    (Cert.KernelIdeal.Blocks.V_v15 m c).trans rfl, Cert.KernelIdeal.Gen.V_main_arg0 m c⟩

theorem algebraic : Cert.algebraic_KernelIdeal_ReferenceIdeal := by
  intro m ρ m' ρ' _ hagree
  refine ⟨fun c => fun _ => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq,
    Cert.ReferenceIdeal.RefValue.result_eq Cert.Contrast.valid_of_int_count, (hagree c).1, (hagree c).2.1, (hagree c).2.2]
  obtain ⟨e7, e14, e15, e0⟩ := arrays_eq m c
  funext _
  unfold Cert.KernelIdeal.Tail.result
  beta_reduce
  rw [Cert.KernelIdeal.Value.total_loss, Cert.KernelIdeal.Value.total_count, e7, e14, e15, e0]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
